-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel

variable [Facts]

def fn {F : FTy → Type} [FloatOps F] (main_arg0 : FVec F S8192x1 .f32) (main_arg1 : FVec F S8192x1 .f32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  let main_v4 : FVec F S8192x1 .f32 := Host.absf main_arg1
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  main_v8
-- ==== Kernel.lean ====
abbrev S8192x1 : Shape := ⟨2, ![8192, 1]⟩
abbrev S_ : Shape := ⟨0, ![]⟩
abbrev S1x8192 : Shape := ⟨2, ![1, 8192]⟩
abbrev S1x1 : Shape := ⟨2, ![1, 1]⟩
abbrev S512x1 : Shape := ⟨2, ![512, 1]⟩
abbrev S1x512 : Shape := ⟨2, ![1, 512]⟩
abbrev S512x512 : Shape := ⟨2, ![512, 512]⟩
abbrev S1x512x512 : Shape := ⟨3, ![1, 512, 512]⟩
abbrev S1 : Shape := ⟨1, ![1]⟩
abbrev S1x1x1 : Shape := ⟨3, ![1, 1, 1]⟩
abbrev S1x512x1 : Shape := ⟨3, ![1, 512, 1]⟩

abbrev nBuf : Space → Nat
  | .hbm => 29
  | .vmem => 17
  | .smem => 0
  | _ => 0

abbrev bufTy : (tb : Table) → Fin (tcTables nBuf tb) → BufTy
  | .hbm, ⟨0, _⟩ => ⟨S8192x1, .f32⟩
  | .hbm, ⟨1, _⟩ => ⟨S8192x1, .f32⟩
  | .hbm, ⟨2, _⟩ => ⟨S_, .f32⟩
  | .hbm, ⟨3, _⟩ => ⟨S8192x1, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S1x8192, .f32⟩
  | .hbm, ⟨25, _⟩ => ⟨S1x8192, .f32⟩
  | .hbm, ⟨26, _⟩ => ⟨S1x8192, .f32⟩
  | .hbm, ⟨27, _⟩ => ⟨S1x1, .f32⟩
  | .hbm, ⟨28, _⟩ => ⟨S_, .f32⟩
  | .local _ .vmem, ⟨0, _⟩ => ⟨S512x1, .f32⟩
  | .local _ .vmem, ⟨1, _⟩ => ⟨S512x1, .f32⟩
  | .local _ .vmem, ⟨2, _⟩ => ⟨S1x512, .f32⟩
  | .local _ .vmem, ⟨3, _⟩ => ⟨S1x512, .f32⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S512x1, .f32⟩
  | .local _ .vmem, ⟨9, _⟩ => ⟨S512x1, .f32⟩
  | .local _ .vmem, ⟨10, _⟩ => ⟨S1x512, .f32⟩
  | .local _ .vmem, ⟨11, _⟩ => ⟨S1x512, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | .local _ .vmem, ⟨15, _⟩ => ⟨S1x1, .f32⟩
  | .local _ .vmem, ⟨16, _⟩ => ⟨S1x1, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨2, ![16, 16], ![false, false]⟩

def k0_cond3 (i : grid0.Coords) : BitVec 1 :=
  let arg0 : BitVec 32 := BitVec.ofNat 32 (i 0).val
  let c15_i32 : BitVec 32 := 15#32
  let v65 : BitVec 1 := Scalar.cmpi .eq arg0 c15_i32
  let arg1 : BitVec 32 := BitVec.ofNat 32 (i 1).val
  let c15_i32_27 : BitVec 32 := 15#32
  let v66 : BitVec 1 := Scalar.cmpi .eq arg1 c15_i32_27
  let v67 : BitVec 1 := Scalar.andi v65 v66
  let v68 : BitVec 32 := Scalar.extui v67
  let c0_i32_28 : BitVec 32 := 0#32
  let v69 : BitVec 1 := Scalar.cmpi .ne v68 c0_i32_28
  v69

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

class Facts₀ : Prop where
  bcast_S_S8192x1 : S_.BroadcastsInDim S8192x1 (![] : Fin 0 → Fin S8192x1.rank)
  shapeCasts_S8192x1_S1x8192 : S8192x1.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1_S512x1_0_0 : ∀ a, (![0, 0] : Fin 2 → Nat) a + S512x1.size a ≤ S512x1.size a
  h_S512x1 : 0 < S512x1.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S512x1_S512x1 : S512x1.ShapeCasts S512x1
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  shapeCasts_S512x1_S1x512x1 : S512x1.ShapeCasts S1x512x1
  reduces_S1x512x1_S1 : S1x512x1.Reduces [1, 2] S1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .f32 = 32 ∨ (Rect.block (s := S8192x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x8192.size a
  hwx0_1 : ∀ i : grid0.Coords, EltTy.bits .f32 = 32 ∨ (Rect.block (s := S1x8192) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .f32 = 32 ∨ (Rect.block (s := S1x8192) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

abbrev win0_0 : Pipeline.Window sig grid0 :=
  Pipeline.Window.ofSpec (Memref.whole main_arg0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S8192x1 : Shape := ⟨2, ![8192, 1]⟩
abbrev S_ : Shape := ⟨0, ![]⟩
abbrev S8192 : Shape := ⟨1, ![8192]⟩
abbrev S1x8192 : Shape := ⟨2, ![1, 8192]⟩
abbrev S8192x8192 : Shape := ⟨2, ![8192, 8192]⟩

abbrev nBuf : Space → Nat
  | .hbm => 111
  | .vmem => 0
  | .smem => 0
  | _ => 0

abbrev bufTy : (tb : Table) → Fin (tcTables nBuf tb) → BufTy
  | .hbm, ⟨0, _⟩ => ⟨S8192x1, .f32⟩
  | .hbm, ⟨1, _⟩ => ⟨S8192x1, .f32⟩
  | .hbm, ⟨2, _⟩ => ⟨S_, .f32⟩
  | .hbm, ⟨3, _⟩ => ⟨S8192x1, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .i1⟩
  | .hbm, ⟨25, _⟩ => ⟨S8192x1, .i1⟩
  | .hbm, ⟨26, _⟩ => ⟨S_, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S8192x1, .f32⟩
  | .hbm, ⟨50, _⟩ => ⟨S1x8192, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S8192x1, .f32⟩
  | .hbm, ⟨55, _⟩ => ⟨S1x8192, .f32⟩
  | .hbm, ⟨56, _⟩ => ⟨S8192x8192, .f32⟩
  | .hbm, ⟨57, _⟩ => ⟨S8192x8192, .f32⟩
  | .hbm, ⟨58, _⟩ => ⟨S8192x8192, .f32⟩
  | .hbm, ⟨59, _⟩ => ⟨S8192x8192, .f32⟩
  | .hbm, ⟨60, _⟩ => ⟨S8192x1, .f32⟩
  | .hbm, ⟨61, _⟩ => ⟨S1x8192, .f32⟩
  | .hbm, ⟨62, _⟩ => ⟨S8192x8192, .f32⟩
  | .hbm, ⟨63, _⟩ => ⟨S8192x8192, .f32⟩
  | .hbm, ⟨64, _⟩ => ⟨S8192x8192, .f32⟩
  | .hbm, ⟨65, _⟩ => ⟨S_, .f32⟩
  | .hbm, ⟨66, _⟩ => ⟨S8192x8192, .f32⟩
  | .hbm, ⟨67, _⟩ => ⟨S8192x8192, .f32⟩
  | .hbm, ⟨68, _⟩ => ⟨S_, .i1⟩
  | .hbm, ⟨69, _⟩ => ⟨S8192x8192, .i1⟩
  | .hbm, ⟨70, _⟩ => ⟨S8192x8192, .i32⟩
  | .hbm, ⟨71, _⟩ => ⟨S_, .i32⟩
  | .hbm, ⟨72, _⟩ => ⟨S8192x8192, .i32⟩
  | .hbm, ⟨73, _⟩ => ⟨S8192x8192, .i32⟩
  | .hbm, ⟨74, _⟩ => ⟨S8192x8192, .i32⟩
  | .hbm, ⟨75, _⟩ => ⟨S8192x8192, .i1⟩
  | .hbm, ⟨76, _⟩ => ⟨S_, .i1⟩
  | .hbm, ⟨77, _⟩ => ⟨S8192x8192, .i1⟩
  | .hbm, ⟨78, _⟩ => ⟨S8192x8192, .i1⟩
  | .hbm, ⟨79, _⟩ => ⟨S8192x8192, .f32⟩
  | .hbm, ⟨80, _⟩ => ⟨S8192x8192, .f32⟩
  | .hbm, ⟨81, _⟩ => ⟨S_, .f32⟩
  | .hbm, ⟨82, _⟩ => ⟨S_, .f32⟩
  | .hbm, ⟨83, _⟩ => ⟨S8192x8192, .f32⟩
  | .hbm, ⟨84, _⟩ => ⟨S8192x8192, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S8192x8192, .f32⟩
  | .hbm, ⟨90, _⟩ => ⟨S8192x8192, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .i1⟩
  | .hbm, ⟨96, _⟩ => ⟨S_, .f32⟩
  | .hbm, ⟨97, _⟩ => ⟨S_, .i1⟩
  | .hbm, ⟨98, _⟩ => ⟨S_, .i1⟩
  | .hbm, ⟨99, _⟩ => ⟨S_, .i1⟩
  | .hbm, ⟨100, _⟩ => ⟨S_, .i1⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_call2_v0 : Ref sig .tc := ⟨.hbm, 33, rfl⟩
abbrev main_call2_v1 : Ref sig .tc := ⟨.hbm, 34, rfl⟩
abbrev main_v17 : Ref sig .tc := ⟨.hbm, 35, rfl⟩
abbrev main_cst_6 : Ref sig .tc := ⟨.hbm, 36, rfl⟩
abbrev main_call3_v0 : Ref sig .tc := ⟨.hbm, 37, rfl⟩
abbrev main_call3_v1 : Ref sig .tc := ⟨.hbm, 38, rfl⟩
abbrev main_v18 : Ref sig .tc := ⟨.hbm, 39, rfl⟩
abbrev main_v19 : Ref sig .tc := ⟨.hbm, 40, rfl⟩
abbrev main_cst_7 : Ref sig .tc := ⟨.hbm, 41, rfl⟩
abbrev main_v20 : Ref sig .tc := ⟨.hbm, 42, rfl⟩
abbrev main_cst_8 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_c : Ref sig .tc := ⟨.hbm, 68, rfl⟩
abbrev main_v44 : Ref sig .tc := ⟨.hbm, 69, rfl⟩
abbrev main_call4_v0 : Ref sig .tc := ⟨.hbm, 70, rfl⟩
abbrev main_call4_c : Ref sig .tc := ⟨.hbm, 71, rfl⟩
abbrev main_call4_v1 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_call4_c_0 : Ref sig .tc := ⟨.hbm, 76, rfl⟩
abbrev main_call4_v5 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_10 : Ref sig .tc := ⟨.hbm, 81, rfl⟩
abbrev main_call5_v0 : Ref sig .tc := ⟨.hbm, 82, rfl⟩
abbrev main_call5_v1 : Ref sig .tc := ⟨.hbm, 83, rfl⟩
abbrev main_v48 : Ref sig .tc := ⟨.hbm, 84, rfl⟩
abbrev main_cst_11 : Ref sig .tc := ⟨.hbm, 85, rfl⟩
abbrev main_v49 : Ref sig .tc := ⟨.hbm, 86, rfl⟩
abbrev main_cst_12 : Ref sig .tc := ⟨.hbm, 87, rfl⟩
abbrev main_call6_v0 : Ref sig .tc := ⟨.hbm, 88, rfl⟩
abbrev main_call6_v1 : Ref sig .tc := ⟨.hbm, 89, rfl⟩
abbrev main_v50 : Ref sig .tc := ⟨.hbm, 90, rfl⟩
abbrev main_cst_13 : Ref sig .tc := ⟨.hbm, 91, rfl⟩
abbrev main_v51 : Ref sig .tc := ⟨.hbm, 92, rfl⟩
abbrev main_v52 : Ref sig .tc := ⟨.hbm, 93, rfl⟩
abbrev main_cst_14 : Ref sig .tc := ⟨.hbm, 94, rfl⟩
abbrev main_v53 : Ref sig .tc := ⟨.hbm, 95, rfl⟩
abbrev main_cst_15 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_16 : Ref sig .tc := ⟨.hbm, 102, rfl⟩
abbrev main_call7_v0 : Ref sig .tc := ⟨.hbm, 103, rfl⟩
abbrev main_v59 : Ref sig .tc := ⟨.hbm, 104, rfl⟩
abbrev main_v60 : Ref sig .tc := ⟨.hbm, 105, rfl⟩
abbrev main_cst_17 : Ref sig .tc := ⟨.hbm, 106, rfl⟩
abbrev main_v61 : Ref sig .tc := ⟨.hbm, 107, rfl⟩
abbrev main_cst_18 : Ref sig .tc := ⟨.hbm, 108, rfl⟩
abbrev main_v62 : Ref sig .tc := ⟨.hbm, 109, rfl⟩
abbrev main_v63 : Ref sig .tc := ⟨.hbm, 110, rfl⟩

abbrev nD : Nat := 1
abbrev τ : Topo := Topo.v7x

variable {F : FTy → Type} [FloatOps F]

class Facts₀ : Prop where
  bcast_S_S8192x1 : S_.BroadcastsInDim S8192x1 (![] : Fin 0 → Fin S8192x1.rank)
  reducesTo_S8192x1_S_d0_1 : S8192x1.ReducesTo [0, 1] S_
  h_S_ : 0 < S_.numel
  shapeCasts_S8192x1_S8192 : S8192x1.ShapeCasts S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_

variable [Facts₀]

class Facts : Prop extends Facts₀ where

variable [Facts]
-- ==== Proof.Pieces.lean ====
/-
  What the kernel's body leaves in its four accumulators and in its output block, case by case.

  The body keeps four one-element accumulators between grid points: the contrastive numerator and denominator, and the
  weighted squared error's numerator and denominator. At every point it adds the block's masked pair sums to the first
  two; on a diagonal block it also adds the block's per-sample sums to the last two; at the first point all four start
  from zero; at the last point the loss is formed from the four totals and stored. Each lemma below reads one buffer's
  final contents, in one of the four cases of the body's conditionals, as the stored value: a function of the point's six
  input blocks and of what the accumulators held before.
-/
import proofs.«139573_j29540785062440_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-buffer access, as a constant function. -/
theorem hz : (![0, 0] : Fin 2 → Nat) = fun _ => 0 := funext fun a => by fin_cases a <;> rfl

/-! ## The first point: every accumulator starts from the stored zero -/

/-- At the first point the contrastive numerator ends at zero plus the block's masked sum. -/
theorem first_num (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : cond0_0 i) (hc1 : cond0_1 i) (hc2 : ¬cond0_2 i)
    (x0 : Vec F S512x1 .f32) (x1 : Vec F S1x512 .f32) (x2 : Vec F S512x1 .f32) (x3 : Vec F S1x512 .f32) (x4 : Vec F S512x1 .f32) (x5 : Vec F S1x512 .f32) :
    sout0_A_0 c i arg2 harg2 arg3 harg3 arg4 harg4 arg5 harg5 arg6 harg6 arg7 harg7 arg8 harg8 arg9 harg9 arg10 harg10 arg11 harg11 arg12 harg12 hc0 hc1 hc2 x0 x1 x2 x3 x4 x5
      = k0_pay1 (k0_pay12 i) (k0_pay13 x0 x1 x2 x3 x4 x5) (Scalar.ofBits .f32 0x00000000#32) (k0_pay6 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 hc2 x0 x1 x2 x3 x4 x5)]
  unfold kernelRun0_A
  dsimp only
  sl_unfold_words
  rw [View.canon_cons_unit_zero (S := S1x1) hz]
  simp only [View.readCov_unit_zero (S := S1x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1) hz, View.ld_unit_zero (S := S1x512) hz, View.ld_unit_zero (S := S1x1) hz]

/-- At the first point the contrastive denominator ends at zero plus the block's masked weight sum. -/
theorem first_den (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : cond0_0 i) (hc1 : cond0_1 i) (hc2 : ¬cond0_2 i)
    (x0 : Vec F S512x1 .f32) (x1 : Vec F S1x512 .f32) (x2 : Vec F S512x1 .f32) (x3 : Vec F S1x512 .f32) (x4 : Vec F S512x1 .f32) (x5 : Vec F S1x512 .f32) :
    sout0_A_1 c i arg2 harg2 arg3 harg3 arg4 harg4 arg5 harg5 arg6 harg6 arg7 harg7 arg8 harg8 arg9 harg9 arg10 harg10 arg11 harg11 arg12 harg12 hc0 hc1 hc2 x0 x1 x2 x3 x4 x5
      = k0_pay2 (k0_pay11 x4 x5) (k0_pay12 i) (k0_pay7 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 hc2 x0 x1 x2 x3 x4 x5)]
  unfold kernelRun0_A
  dsimp only
  sl_unfold_words
  rw [View.canon_cons_unit_zero (S := S1x1) hz]
  simp only [View.readCov_unit_zero (S := S1x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1) hz, View.ld_unit_zero (S := S1x512) hz, View.ld_unit_zero (S := S1x1) hz]

/-- At the first point (a diagonal block) the squared-error numerator ends at zero plus the block's sum. -/
theorem first_mnum (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : cond0_0 i) (hc1 : cond0_1 i) (hc2 : ¬cond0_2 i)
    (x0 : Vec F S512x1 .f32) (x1 : Vec F S1x512 .f32) (x2 : Vec F S512x1 .f32) (x3 : Vec F S1x512 .f32) (x4 : Vec F S512x1 .f32) (x5 : Vec F S1x512 .f32) :
    sout0_A_2 c i arg2 harg2 arg3 harg3 arg4 harg4 arg5 harg5 arg6 harg6 arg7 harg7 arg8 harg8 arg9 harg9 arg10 harg10 arg11 harg11 arg12 harg12 hc0 hc1 hc2 x0 x1 x2 x3 x4 x5
      = k0_pay3 x0 x2 (k0_pay10 x4) (k0_pay8 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 hc2 x0 x1 x2 x3 x4 x5)]
  unfold kernelRun0_A
  dsimp only
  sl_unfold_words
  rw [View.canon_cons_unit_zero (S := S1x1) hz]
  simp only [View.readCov_unit_zero (S := S1x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1) hz, View.ld_unit_zero (S := S1x512) hz, View.ld_unit_zero (S := S1x1) hz]

/-- At the first point the squared-error denominator ends at zero plus the block's weight sum. -/
theorem first_mden (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : cond0_0 i) (hc1 : cond0_1 i) (hc2 : ¬cond0_2 i)
    (x0 : Vec F S512x1 .f32) (x1 : Vec F S1x512 .f32) (x2 : Vec F S512x1 .f32) (x3 : Vec F S1x512 .f32) (x4 : Vec F S512x1 .f32) (x5 : Vec F S1x512 .f32) :
    sout0_A_3 c i arg2 harg2 arg3 harg3 arg4 harg4 arg5 harg5 arg6 harg6 arg7 harg7 arg8 harg8 arg9 harg9 arg10 harg10 arg11 harg11 arg12 harg12 hc0 hc1 hc2 x0 x1 x2 x3 x4 x5
      = k0_pay4 (k0_pay10 x4) (k0_pay9 (F := F)) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 hc0 hc1 hc2 x0 x1 x2 x3 x4 x5)]
  unfold kernelRun0_A
  dsimp only
  sl_unfold_words
  rw [View.canon_cons_unit_zero (S := S1x1) hz]
  simp only [View.readCov_unit_zero (S := S1x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1) hz, View.ld_unit_zero (S := S1x512) hz, View.ld_unit_zero (S := S1x1) hz]

/-! ## An off-diagonal point: the pair sums grow, the per-sample sums stay -/

/-- Off the diagonal the contrastive numerator grows by the block's masked sum. -/
theorem off_num (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : ¬cond0_1 i) (hc2 : ¬cond0_2 i)
    (x0 : Vec F S512x1 .f32) (x1 : Vec F S1x512 .f32) (x2 : Vec F S512x1 .f32) (x3 : Vec F S1x512 .f32) (x4 : Vec F S512x1 .f32) (x5 : Vec F S1x512 .f32) (xs0 : Vec F S1x1 .f32) (xs1 : Vec F S1x1 .f32) (xs2 : Vec F S1x1 .f32) (xs3 : Vec F S1x1 .f32) :
    sout0_B_0 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2 xs3
      = k0_pay1 (k0_pay12 i) (k0_pay13 x0 x1 x2 x3 x4 x5) (Scalar.ofBits .f32 0x00000000#32) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2 xs3)]
  unfold kernelRun0_B
  dsimp only
  sl_unfold_words
  rw [View.canon_unit_zero hz]
  simp only [View.readCov_unit_zero (S := S1x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1) hz, View.ld_unit_zero (S := S1x512) hz, View.ld_unit_zero (S := S1x1) hz]

/-- Off the diagonal the contrastive denominator grows by the block's masked weight sum. -/
theorem off_den (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : ¬cond0_1 i) (hc2 : ¬cond0_2 i)
    (x0 : Vec F S512x1 .f32) (x1 : Vec F S1x512 .f32) (x2 : Vec F S512x1 .f32) (x3 : Vec F S1x512 .f32) (x4 : Vec F S512x1 .f32) (x5 : Vec F S1x512 .f32) (xs0 : Vec F S1x1 .f32) (xs1 : Vec F S1x1 .f32) (xs2 : Vec F S1x1 .f32) (xs3 : Vec F S1x1 .f32) :
    sout0_B_1 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2 xs3
      = k0_pay2 (k0_pay11 x4 x5) (k0_pay12 i) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2 xs3)]
  unfold kernelRun0_B
  dsimp only
  sl_unfold_words
  rw [View.canon_unit_zero hz]
  simp only [View.readCov_unit_zero (S := S1x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1) hz, View.ld_unit_zero (S := S1x512) hz, View.ld_unit_zero (S := S1x1) hz]

/-! ## A diagonal point that is neither first nor last: all four grow -/

/-- On the diagonal the contrastive numerator grows by the block's masked sum. -/
theorem diag_num (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i) (hc2 : ¬cond0_2 i)
    (x0 : Vec F S512x1 .f32) (x1 : Vec F S1x512 .f32) (x2 : Vec F S512x1 .f32) (x3 : Vec F S1x512 .f32) (x4 : Vec F S512x1 .f32) (x5 : Vec F S1x512 .f32) (xs0 : Vec F S1x1 .f32) (xs1 : Vec F S1x1 .f32) (xs2 : Vec F S1x1 .f32) (xs3 : Vec F S1x1 .f32) :
    sout0_C_0 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2 xs3
      = k0_pay1 (k0_pay12 i) (k0_pay13 x0 x1 x2 x3 x4 x5) (Scalar.ofBits .f32 0x00000000#32) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2 xs3)]
  unfold kernelRun0_C
  dsimp only
  sl_unfold_words
  rw [View.canon_unit_zero hz]
  simp only [View.readCov_unit_zero (S := S1x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1) hz, View.ld_unit_zero (S := S1x512) hz, View.ld_unit_zero (S := S1x1) hz]

/-- On the diagonal the contrastive denominator grows by the block's masked weight sum. -/
theorem diag_den (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i) (hc2 : ¬cond0_2 i)
    (x0 : Vec F S512x1 .f32) (x1 : Vec F S1x512 .f32) (x2 : Vec F S512x1 .f32) (x3 : Vec F S1x512 .f32) (x4 : Vec F S512x1 .f32) (x5 : Vec F S1x512 .f32) (xs0 : Vec F S1x1 .f32) (xs1 : Vec F S1x1 .f32) (xs2 : Vec F S1x1 .f32) (xs3 : Vec F S1x1 .f32) :
    sout0_C_1 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2 xs3
      = k0_pay2 (k0_pay11 x4 x5) (k0_pay12 i) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2 xs3)]
  unfold kernelRun0_C
  dsimp only
  sl_unfold_words
  rw [View.canon_unit_zero hz]
  simp only [View.readCov_unit_zero (S := S1x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1) hz, View.ld_unit_zero (S := S1x512) hz, View.ld_unit_zero (S := S1x1) hz]

/-- On the diagonal the squared-error numerator grows by the block's sum. -/
theorem diag_mnum (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i) (hc2 : ¬cond0_2 i)
    (x0 : Vec F S512x1 .f32) (x1 : Vec F S1x512 .f32) (x2 : Vec F S512x1 .f32) (x3 : Vec F S1x512 .f32) (x4 : Vec F S512x1 .f32) (x5 : Vec F S1x512 .f32) (xs0 : Vec F S1x1 .f32) (xs1 : Vec F S1x1 .f32) (xs2 : Vec F S1x1 .f32) (xs3 : Vec F S1x1 .f32) :
    sout0_C_2 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2 xs3
      = k0_pay3 x0 x2 (k0_pay10 x4) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2 xs3)]
  unfold kernelRun0_C
  dsimp only
  sl_unfold_words
  rw [View.canon_unit_zero hz]
  simp only [View.readCov_unit_zero (S := S1x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1) hz, View.ld_unit_zero (S := S1x512) hz, View.ld_unit_zero (S := S1x1) hz]

/-- On the diagonal the squared-error denominator grows by the block's weight sum. -/
theorem diag_mden (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i) (hc2 : ¬cond0_2 i)
    (x0 : Vec F S512x1 .f32) (x1 : Vec F S1x512 .f32) (x2 : Vec F S512x1 .f32) (x3 : Vec F S1x512 .f32) (x4 : Vec F S512x1 .f32) (x5 : Vec F S1x512 .f32) (xs0 : Vec F S1x1 .f32) (xs1 : Vec F S1x1 .f32) (xs2 : Vec F S1x1 .f32) (xs3 : Vec F S1x1 .f32) :
    sout0_C_3 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2 xs3
      = k0_pay4 (k0_pay10 x4) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2 xs3)]
  unfold kernelRun0_C
  dsimp only
  sl_unfold_words
  rw [View.canon_unit_zero hz]
  simp only [View.readCov_unit_zero (S := S1x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1) hz, View.ld_unit_zero (S := S1x512) hz, View.ld_unit_zero (S := S1x1) hz]

/-! ## The last point: all four grow, and the loss is formed from the totals -/

/-- At the last point the contrastive numerator grows by the block's masked sum. -/
theorem last_num (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i) (hc2 : cond0_2 i)
    (x0 : Vec F S512x1 .f32) (x1 : Vec F S1x512 .f32) (x2 : Vec F S512x1 .f32) (x3 : Vec F S1x512 .f32) (x4 : Vec F S512x1 .f32) (x5 : Vec F S1x512 .f32) (xs0 : Vec F S1x1 .f32) (xs1 : Vec F S1x1 .f32) (xs2 : Vec F S1x1 .f32) (xs3 : Vec F S1x1 .f32) :
    sout0_D_0 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2 xs3
      = k0_pay1 (k0_pay12 i) (k0_pay13 x0 x1 x2 x3 x4 x5) (Scalar.ofBits .f32 0x00000000#32) xs0 := by
  unfold sout0_D_0
  rw [View.read_writes_eq_canon _ _ _ (scover0_D_0 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2 xs3)]
  unfold kernelRun0_D
  dsimp only
  sl_unfold_words
  rw [View.canon_unit_zero hz]
  simp only [View.readCov_unit_zero (S := S1x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1) hz, View.ld_unit_zero (S := S1x512) hz, View.ld_unit_zero (S := S1x1) hz]

/-- At the last point the contrastive denominator grows by the block's masked weight sum. -/
theorem last_den (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i) (hc2 : cond0_2 i)
    (x0 : Vec F S512x1 .f32) (x1 : Vec F S1x512 .f32) (x2 : Vec F S512x1 .f32) (x3 : Vec F S1x512 .f32) (x4 : Vec F S512x1 .f32) (x5 : Vec F S1x512 .f32) (xs0 : Vec F S1x1 .f32) (xs1 : Vec F S1x1 .f32) (xs2 : Vec F S1x1 .f32) (xs3 : Vec F S1x1 .f32) :
    sout0_D_1 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2 xs3
      = k0_pay2 (k0_pay11 x4 x5) (k0_pay12 i) xs1 := by
  unfold sout0_D_1
  rw [View.read_writes_eq_canon _ _ _ (scover0_D_1 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2 xs3)]
  unfold kernelRun0_D
  dsimp only
  sl_unfold_words
  rw [View.canon_unit_zero hz]
  simp only [View.readCov_unit_zero (S := S1x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1) hz, View.ld_unit_zero (S := S1x512) hz, View.ld_unit_zero (S := S1x1) hz]

/-- At the last point the squared-error numerator grows by the block's sum. -/
theorem last_mnum (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i) (hc2 : cond0_2 i)
    (x0 : Vec F S512x1 .f32) (x1 : Vec F S1x512 .f32) (x2 : Vec F S512x1 .f32) (x3 : Vec F S1x512 .f32) (x4 : Vec F S512x1 .f32) (x5 : Vec F S1x512 .f32) (xs0 : Vec F S1x1 .f32) (xs1 : Vec F S1x1 .f32) (xs2 : Vec F S1x1 .f32) (xs3 : Vec F S1x1 .f32) :
    sout0_D_2 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2 xs3
      = k0_pay3 x0 x2 (k0_pay10 x4) xs2 := by
  unfold sout0_D_2
  rw [View.read_writes_eq_canon _ _ _ (scover0_D_2 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2 xs3)]
  unfold kernelRun0_D
  dsimp only
  sl_unfold_words
  rw [View.canon_unit_zero hz]
  simp only [View.readCov_unit_zero (S := S1x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1) hz, View.ld_unit_zero (S := S1x512) hz, View.ld_unit_zero (S := S1x1) hz]

/-- At the last point the squared-error denominator grows by the block's weight sum. -/
theorem last_mden (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i) (hc2 : cond0_2 i)
    (x0 : Vec F S512x1 .f32) (x1 : Vec F S1x512 .f32) (x2 : Vec F S512x1 .f32) (x3 : Vec F S1x512 .f32) (x4 : Vec F S512x1 .f32) (x5 : Vec F S1x512 .f32) (xs0 : Vec F S1x1 .f32) (xs1 : Vec F S1x1 .f32) (xs2 : Vec F S1x1 .f32) (xs3 : Vec F S1x1 .f32) :
    sout0_D_3 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2 xs3
      = k0_pay4 (k0_pay10 x4) xs3 := by
  unfold sout0_D_3
  rw [View.read_writes_eq_canon _ _ _ (scover0_D_3 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2 xs3)]
  unfold kernelRun0_D
  dsimp only
  sl_unfold_words
  rw [View.canon_unit_zero hz]
  simp only [View.readCov_unit_zero (S := S1x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1) hz, View.ld_unit_zero (S := S1x512) hz, View.ld_unit_zero (S := S1x1) hz]

/-- At the last point the output block holds the loss formed from the four totals as they stand after this point's additions. -/
theorem last_out (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i) (hc2 : cond0_2 i)
    (x0 : Vec F S512x1 .f32) (x1 : Vec F S1x512 .f32) (x2 : Vec F S512x1 .f32) (x3 : Vec F S1x512 .f32) (x4 : Vec F S512x1 .f32) (x5 : Vec F S1x512 .f32) (xs0 : Vec F S1x1 .f32) (xs1 : Vec F S1x1 .f32) (xs2 : Vec F S1x1 .f32) (xs3 : Vec F S1x1 .f32) :
    out0_D_6 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2 xs3
      = k0_pay5 (k0_pay3 x0 x2 (k0_pay10 x4) xs2) (k0_pay4 (k0_pay10 x4) xs3) (k0_pay1 (k0_pay12 i) (k0_pay13 x0 x1 x2 x3 x4 x5) (Scalar.ofBits .f32 0x00000000#32) xs0) (k0_pay2 (k0_pay11 x4 x5) (k0_pay12 i) xs1) := by
  unfold out0_D_6
  rw [View.read_writes_eq_canon _ _ _ (cover0_D_6 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2 xs3)]
  unfold kernelRun0_D
  dsimp only
  sl_unfold_words
  rw [View.canon_unit_zero hz]
  simp only [View.readCov_unit_zero (S := S1x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1) hz, View.ld_unit_zero (S := S1x512) hz, View.ld_unit_zero (S := S1x1) hz]

end Cert.KernelIdeal.Pieces

end
-- ==== Proof.LibBlockSum.lean ====
/-
  Regrouping a long sum into consecutive blocks.

  A sum over `N = G · L` consecutive positions is the sum, over the `G` blocks of `L` consecutive positions each, of the
  blocks' own sums: position `kk` of block `kb` is position `L · kb + kk` of the whole range. Only commutativity and
  associativity of `+` are used, so the law holds in every additive commutative monoid — in particular on the extended
  reals, where `+` is commutative and associative although it does not cancel and `·` does not distribute at the
  infinities. It is the law that joins a contraction (a matrix product, a long reduction) accumulated block by block
  with the same contraction taken in one piece.

  `sum_blocks` states it over `Fin (G * L)`; `sum_blocks_of_eq` over `Fin N` for a total `N` given with `N = G * L`
  (for literal sizes the equation is `rfl`), the position written `⟨L * kb + kk, _⟩`.
-/
import Mathlib.Logic.Equiv.Fin.Basic
import Mathlib.Data.Fintype.BigOperators

namespace Cert.Lib.BlockSum

open Finset

/-- Position `kk` of block `kb`, among `G · L` consecutive positions cut into `G` blocks of `L`. -/
def blockPos (G L : ℕ) (kb : Fin G) (kk : Fin L) : Fin (G * L) := finProdFinEquiv (kb, kk)

/-- As a number, position `kk` of block `kb` is `kk + L · kb`. -/
theorem blockPos_val (G L : ℕ) (kb : Fin G) (kk : Fin L) : (blockPos G L kb kk).val = kk.val + L * kb.val := rfl

/-- `L · kb + kk` is one of the `N = G · L` positions. -/
theorem blockPos_lt {G L N : ℕ} (hN : N = G * L) (kb : Fin G) (kk : Fin L) : L * kb.val + kk.val < N :=
  calc L * kb.val + kk.val < L * kb.val + L := Nat.add_lt_add_left kk.isLt _
    _ = L * (kb.val + 1) := (Nat.mul_succ L kb.val).symm
    _ ≤ L * G := Nat.mul_le_mul_left L kb.isLt
    _ = N := by rw [hN, Nat.mul_comm]

/-- A sum over `G · L` positions is the sum over the blocks of each block's sum. -/
theorem sum_blocks {M : Type*} [AddCommMonoid M] (G L : ℕ) (f : Fin (G * L) → M) :
    ∑ k, f k = ∑ kb : Fin G, ∑ kk : Fin L, f (blockPos G L kb kk) :=
  (Fintype.sum_equiv finProdFinEquiv (fun p => f (finProdFinEquiv p)) f (fun _ => rfl)).symm.trans
    (Fintype.sum_prod_type _)

/-- The same over `Fin N` with `N = G · L`, the position written `L · kb + kk`. -/
theorem sum_blocks_of_eq {M : Type*} [AddCommMonoid M] {G L N : ℕ} (hN : N = G * L) (f : Fin N → M) :
    ∑ k, f k = ∑ kb : Fin G, ∑ kk : Fin L, f ⟨L * kb.val + kk.val, blockPos_lt hN kb kk⟩ := by
  subst hN
  refine (sum_blocks G L f).trans ?_
  refine Finset.sum_congr rfl fun kb _ => Finset.sum_congr rfl fun kk _ => congrArg f (Fin.ext ?_)
  show kk.val + L * kb.val = L * kb.val + kk.val
  exact Nat.add_comm _ _

end Cert.Lib.BlockSum
-- ==== Proof.Regroup.lean ====
/-
  Regrouping the loss's sums.

  The loss is built from four sums over the 8192 samples: two over the pairs (a, b) of samples and two over single
  samples. The kernel visits the 8192 × 8192 pair matrix as a 16 × 16 grid of 512 × 512 blocks, point k of the grid being
  block (k / 16, k % 16), and adds each block's own sum to a running total; the single-sample sums it takes on the
  diagonal blocks only, the points k with k % 17 = 0. The laws below say that these block-by-block totals are the whole
  sums. Only commutativity and associativity of + are used, so they hold in any additive commutative monoid, the
  extended reals among them.
-/
import proofs.«139573_j29540785062440_2_alg».proof.Proof.LibBlockSum

namespace Cert.PairLoss

open Finset Cert.Lib.BlockSum

variable {M : Type*} [AddCommMonoid M]

/-- A sum over the 8192 samples, block by block: sample 512·bi + r is sample r of block bi. -/
theorem sum_samples_blocks (g : ℕ → M) :
    ∑ a : Fin 8192, g a = ∑ bi : Fin 16, ∑ r : Fin 512, g (512 * bi + r) :=
  sum_blocks_of_eq (G := 16) (L := 512) (N := 8192) rfl (fun a : Fin 8192 => g a)

/-- A sum over all pairs of samples, block by block: the pair (512·bi + r, 512·bj + c) is entry (r, c) of block (bi, bj). -/
theorem sum_pairs_blocks (f : ℕ → ℕ → M) :
    ∑ a : Fin 8192, ∑ b : Fin 8192, f a b
      = ∑ bi : Fin 16, ∑ bj : Fin 16, ∑ r : Fin 512, ∑ c : Fin 512, f (512 * bi + r) (512 * bj + c) := by
  rw [sum_samples_blocks (fun a => ∑ b : Fin 8192, f a b)]
  refine Finset.sum_congr rfl fun bi _ => ?_
  calc ∑ r : Fin 512, ∑ b : Fin 8192, f (512 * bi + r) b
      = ∑ r : Fin 512, ∑ bj : Fin 16, ∑ c : Fin 512, f (512 * bi + r) (512 * bj + c) :=
        Finset.sum_congr rfl fun r _ => sum_samples_blocks (fun b => f (512 * bi + r) b)
    _ = ∑ bj : Fin 16, ∑ r : Fin 512, ∑ c : Fin 512, f (512 * bi + r) (512 * bj + c) := Finset.sum_comm

/-- The 256 grid points in row-major order are the 16 × 16 blocks: point k is block (k / 16, k % 16). -/
theorem sum_points (h : ℕ → ℕ → M) :
    ∑ k ∈ Finset.range 256, h (k / 16) (k % 16) = ∑ bi : Fin 16, ∑ bj : Fin 16, h bi bj := by
  rw [← Fin.sum_univ_eq_sum_range (fun k => h (k / 16) (k % 16)) 256,
    sum_blocks_of_eq (G := 16) (L := 16) (N := 256) rfl (fun k : Fin 256 => h (k / 16) (k % 16))]
  refine Finset.sum_congr rfl fun bi _ => Finset.sum_congr rfl fun bj _ => ?_
  show h ((16 * bi.val + bj.val) / 16) ((16 * bi.val + bj.val) % 16) = h bi bj
  have h1 : (16 * bi.val + bj.val) / 16 = bi.val := by omega
  have h2 : (16 * bi.val + bj.val) % 16 = bj.val := by omega
  rw [h1, h2]

/-- The diagonal blocks are the points k with k % 17 = 0, one per block row: what is added there only is added once
    per block row. -/
theorem sum_diag (g : ℕ → M) :
    ∑ k ∈ Finset.range 256, (if k % 17 = 0 then g (k / 16) else 0) = ∑ bi : Fin 16, g bi := by
  have e : ∀ k ∈ Finset.range 256, (if k % 17 = 0 then g (k / 16) else 0)
      = (fun a b : ℕ => if a = b then g a else 0) (k / 16) (k % 16) := by
    intro k hk
    have hk' : k < 256 := Finset.mem_range.mp hk
    have hiff : (k % 17 = 0) ↔ (k / 16 = k % 16) := by omega
    exact if_congr hiff rfl rfl
  refine (Finset.sum_congr rfl e).trans ((sum_points (fun a b : ℕ => if a = b then g a else 0)).trans ?_)
  refine Finset.sum_congr rfl fun bi _ => ?_
  simp only [Fin.val_inj, Finset.sum_ite_eq, Finset.mem_univ, if_true]

end Cert.PairLoss
-- ==== Proof.Spec.lean ====
/-
  The loss, as one function of three columns of extended reals.

  For predictions X, targets Y and per-sample weights W over 8192 samples the loss combines a weighted mean squared error

      mse = (Σ_a (Y a − X a)² · W a) / (Σ_a W a)

  with a contrastive term over the unordered pairs a < b of samples,

      con = (Σ_{a<b} d(a,b)² · w(a,b)) / (Σ_{a<b} w(a,b)),   d(a,b) = (X a − X b) − (Y a − Y b),   w(a,b) = ½ (W a + W b),

  as  ½ · mse + ½ · (con · s),  where s = mse / con when con > ε, mse > ε and con < mse, and s = 1 otherwise. A pair with
  a ≥ b contributes the summand 0, so both pair sums run over the whole 8192 × 8192 matrix of pairs.

  The four sums are also cut into the 512-sample blocks in which they are accumulated over a 16 × 16 grid: the block sums
  below, and the laws that the running totals over the grid's points, in row-major order, end at the whole sums.
-/
import Idealize.ShloMosaic.PureOps.Ideal
import Idealize.ShloMosaic.PureOps.Ideal.Laws
import Idealize.ShloMosaic.Lib.ValueIdx
import proofs.«139573_j29540785062440_2_alg».proof.Proof.Regroup

noncomputable section

namespace Cert.PairLoss

open Idealize.ShloMosaic Idealize.ShloMosaic.ValueIdx Finset

/-- The constants ½, ε and 1, as the f32 words both programs spell them with. -/
def half : EReal := Ideal.ofBits .f32 0x3F000000#32
def eps : EReal := Ideal.ofBits .f32 0x322BCC77#32
def one : EReal := Ideal.ofBits .f32 0x3F800000#32

/-- Column `v` of an [8192, 1] array as a function of the sample's number (0 beyond the last sample). -/
def col (v : (⟨2, ![8192, 1]⟩ : Shape).Idx → EReal) (a : ℕ) : EReal :=
  if h : a < 8192 then v (ix2 (⟨a, h⟩ : Fin 8192) (0 : Fin 1)) else 0

theorem col_eq (v : (⟨2, ![8192, 1]⟩ : Shape).Idx → EReal) (a : ℕ) (h : a < 8192) (u : Fin 1) :
    v (ix2 (⟨a, h⟩ : Fin 8192) u) = col v a := by
  obtain rfl : u = 0 := Subsingleton.elim _ _
  unfold col; rw [dif_pos h]

variable (X Y W : ℕ → EReal)

/-- The pairwise difference d(a, b) and the pair weight w(a, b). -/
def dT (a b : ℕ) : EReal := (X a - X b) - (Y a - Y b)
def wT (a b : ℕ) : EReal := half * (W a + W b)
/-- The summands of the contrastive term's numerator and denominator: zero unless a < b. -/
def numT (a b : ℕ) : EReal := if a < b then dT X Y a b * dT X Y a b * wT W a b else 0
def denT (a b : ℕ) : EReal := if a < b then wT W a b else 0
/-- Sample a's weighted squared error. -/
def mseT (a : ℕ) : EReal := (Y a - X a) * (Y a - X a) * W a

/-- The four whole sums. -/
def num : EReal := ∑ a : Fin 8192, ∑ b : Fin 8192, numT X Y W a b
def den : EReal := ∑ a : Fin 8192, ∑ b : Fin 8192, denT W a b
def mnum : EReal := ∑ a : Fin 8192, mseT X Y W a
def mden : EReal := ∑ a : Fin 8192, W a

/-- Their parts over block (bi, bj) of the pair matrix, and over block bi of the samples. -/
def numB (bi bj : ℕ) : EReal := ∑ r : Fin 512, ∑ c : Fin 512, numT X Y W (512 * bi + r) (512 * bj + c)
def denB (bi bj : ℕ) : EReal := ∑ r : Fin 512, ∑ c : Fin 512, denT W (512 * bi + r) (512 * bj + c)
def mnumB (bi : ℕ) : EReal := ∑ r : Fin 512, mseT X Y W (512 * bi + r)
def mdenB (bi : ℕ) : EReal := ∑ r : Fin 512, W (512 * bi + r)

/-- Over the 256 grid points the block sums add up to the whole sums. -/
theorem num_blocks : ∑ k ∈ range 256, numB X Y W (k / 16) (k % 16) = num X Y W := by
  unfold num
  rw [sum_points (numB X Y W), sum_pairs_blocks (numT X Y W)]
  rfl

theorem den_blocks : ∑ k ∈ range 256, denB W (k / 16) (k % 16) = den W := by
  unfold den
  rw [sum_points (denB W), sum_pairs_blocks (denT W)]
  rfl

/-- The per-sample sums are taken on the diagonal points only, and there once per block of samples. -/
theorem mnum_blocks : ∑ k ∈ range 256, (if k % 17 = 0 then mnumB X Y W (k / 16) else 0) = mnum X Y W := by
  unfold mnum
  rw [sum_diag (mnumB X Y W), sum_samples_blocks (mseT X Y W)]
  rfl

theorem mden_blocks : ∑ k ∈ range 256, (if k % 17 = 0 then mdenB W (k / 16) else 0) = mden W := by
  unfold mden
  rw [sum_diag (mdenB W), sum_samples_blocks W]
  rfl

/-- The last step: from the four sums to the loss. -/
def finish (mn md n d : EReal) : EReal :=
  half * Ideal.div mn md
    + half * (Ideal.div n d
        * Scalar.select
            (IntOp.andi (IntOp.andi (Ideal.cmp .ogt (Ideal.div n d) eps) (Ideal.cmp .ogt (Ideal.div mn md) eps))
              (Ideal.cmp .olt (Ideal.div n d) (Ideal.div mn md)))
            (Ideal.div (Ideal.div mn md) (Ideal.div n d)) one)

/-- The loss. -/
def loss : EReal := finish (mnum X Y W) (mden W) (num X Y W) (den W)

end Cert.PairLoss

end
-- ==== Proof.Totals.lean ====
/-
  Total sums as the kernel's body takes them.

  The body sums a 512 × 512 tile over both of its axes, and a 512-row column block over its rows, by reshaping it to a
  leading unit axis, reducing over the other two axes and extracting the one result. Reshaping permutes the elements, so
  each of these is the plain double, or single, sum over the tile's or block's coordinates.
-/
import proofs.«139573_j29540785062440_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«139573_j29540785062440_2_alg».proof.Proof.Spec

noncomputable section

namespace Cert.KernelIdeal.Totals

open Idealize.ShloMosaic Idealize.ShloMosaic.ValueIdx Cert.KernelIdeal Cert.KernelIdeal.Gen Cert.PairLoss Finset

/-- Reshaping an array permutes its elements, so it keeps their total. -/
theorem sum_shapeCast {s t : Shape} (x : s.Idx → EReal) (h : s.ShapeCasts t) :
    ∑ j : t.Idx, shapeCast t x h j = ∑ k : s.Idx, x k :=
  Equiv.sum_comp (Shape.reshapeEquiv h) x

theorem unit_S1 : ∀ b : Fin S1.rank, S1.size b = 1 := fun b => by fin_cases b; rfl

/-- The sum of a 512 × 512 tile over both axes, as the body takes it (reshaped to [1, 512, 512], reduced over axes 1
    and 2, the one result extracted), is the double sum over its rows and columns. -/
theorem total_tile (v : S512x512.Idx → EReal) (hφ : FKind.Formats .f32)
    (hacc : (0x00000000#32 : BitVec 32) = FKind.add.neutral .f32 hφ) :
    extractAt ![0, 0, 0] (shapeCast S1x1x1 (multiReduction (F := Ideal) .add [1, 2] S1
        (shapeCast S1x512x512 v shapeCasts_S512x512_S1x512x512) 0x00000000#32 reduces_S1x512x512_S1 hφ hacc)
        shapeCasts_S1_S1x1x1) inpos_S1x1x1_p0_0_0
      = ∑ r : Fin 512, ∑ c : Fin 512, v (ix2 r c) := by
  unfold extractAt
  refine (Ideal.multiReduction_add_total (shapeCast S1x512x512 v shapeCasts_S512x512_S1x512x512) _ reduces_S1x512x512_S1 unit_S1 hφ hacc _).trans ?_
  exact (sum_shapeCast v shapeCasts_S512x512_S1x512x512).trans (sum_idx2 v)

/-- The sum of a 512-row column block, taken the same way, is the sum over its rows. -/
theorem total_column (v : S512x1.Idx → EReal) (hφ : FKind.Formats .f32)
    (hacc : (0x00000000#32 : BitVec 32) = FKind.add.neutral .f32 hφ) :
    extractAt ![0, 0, 0] (shapeCast S1x1x1 (multiReduction (F := Ideal) .add [1, 2] S1
        (shapeCast S1x512x1 v shapeCasts_S512x1_S1x512x1) 0x00000000#32 reduces_S1x512x1_S1 hφ hacc)
        shapeCasts_S1_S1x1x1) inpos_S1x1x1_p0_0_0
      = ∑ r : Fin 512, v (ix2 r (0 : Fin 1)) := by
  unfold extractAt
  refine (Ideal.multiReduction_add_total (shapeCast S1x512x1 v shapeCasts_S512x1_S1x512x1) _ reduces_S1x512x1_S1 unit_S1 hφ hacc _).trans ?_
  refine (sum_shapeCast v shapeCasts_S512x1_S1x512x1).trans ((sum_idx2 v).trans ?_)
  exact Finset.sum_congr rfl fun r _ => Fin.sum_univ_one _

end Cert.KernelIdeal.Totals

end
-- ==== Proof.Steps.lean ====
/-
  The values the kernel's body stores, read as extended reals.

  Each accumulator's new value is its old value plus a total over the point's tile or column block; the four zeros the
  first point stores are the extended real 0; and the value the last point stores is the loss formed from the four
  totals.
-/
import proofs.«139573_j29540785062440_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«139573_j29540785062440_2_alg».proof.Proof.Spec
import proofs.«139573_j29540785062440_2_alg».proof.Proof.Totals

noncomputable section

namespace Cert.KernelIdeal.Steps

open Idealize.ShloMosaic Idealize.ShloMosaic.ValueIdx Cert.KernelIdeal Cert.KernelIdeal.Gen Cert.PairLoss Finset

open Cert.KernelIdeal.Totals

/-- The contrastive numerator's new value: the old one plus the tile's kept entries. -/
theorem num_step (v35 : IVec S512x512 1) (v37 : S512x512.Idx → EReal) (z : EReal) (acc : S1x1.Idx → EReal) (j : S1x1.Idx) :
    k0_pay1 (F := Ideal) v35 v37 z acc j
      = acc j + ∑ r : Fin 512, ∑ c : Fin 512, Scalar.select (v35 (ix2 r c)) (v37 (ix2 r c)) z := by
  unfold k0_pay1
  refine (congrFun (shapeCast_self _ shapeCasts_S1x1_S1x1) j).trans ?_
  rw [addf_apply, broadcast_apply]
  exact congrArg (acc j + ·) (total_tile _ _ _)

/-- The contrastive denominator's new value: the old one plus the tile's kept pair weights. -/
theorem den_step (v26 : S512x512.Idx → EReal) (v35 : IVec S512x512 1) (acc : S1x1.Idx → EReal) (j : S1x1.Idx) :
    k0_pay2 (F := Ideal) v26 v35 acc j
      = acc j + ∑ r : Fin 512, ∑ c : Fin 512, Scalar.select (v35 (ix2 r c)) (v26 (ix2 r c)) (Ideal.ofBits .f32 0x00000000#32) := by
  unfold k0_pay2
  refine (congrFun (shapeCast_self _ shapeCasts_S1x1_S1x1) j).trans ?_
  rw [addf_apply, broadcast_apply]
  exact congrArg (acc j + ·) (total_tile _ _ _)

/-- The squared-error numerator's new value: the old one plus the block's weighted squared errors. -/
theorem mnum_step (v5 v8 v12 : S512x1.Idx → EReal) (acc : S1x1.Idx → EReal) (j : S1x1.Idx) :
    k0_pay3 (F := Ideal) v5 v8 v12 acc j
      = acc j + ∑ r : Fin 512, (v8 (ix2 r (0 : Fin 1)) - v5 (ix2 r (0 : Fin 1))) * (v8 (ix2 r (0 : Fin 1)) - v5 (ix2 r (0 : Fin 1))) * v12 (ix2 r (0 : Fin 1)) := by
  unfold k0_pay3
  refine (congrFun (shapeCast_self _ shapeCasts_S1x1_S1x1) j).trans ?_
  rw [addf_apply, broadcast_apply]
  exact congrArg (acc j + ·) (total_column _ _ _)

/-- The squared-error denominator's new value: the old one plus the block's weights. -/
theorem mden_step (v12 : S512x1.Idx → EReal) (acc : S1x1.Idx → EReal) (j : S1x1.Idx) :
    k0_pay4 (F := Ideal) v12 acc j = acc j + ∑ r : Fin 512, v12 (ix2 r (0 : Fin 1)) := by
  unfold k0_pay4
  refine (congrFun (shapeCast_self _ shapeCasts_S1x1_S1x1) j).trans ?_
  rw [addf_apply, broadcast_apply]
  exact congrArg (acc j + ·) (total_column _ _ _)

/-- The weights' column block is used as loaded. -/
theorem weights_eq (v : S512x1.Idx → EReal) : k0_pay10 (F := Ideal) v = v := by
  unfold k0_pay10
  exact shapeCast_self _ _

/-- The four zeros the first point stores. -/
theorem zero_num (j : S1x1.Idx) : k0_pay6 (F := Ideal) j = 0 := by
  unfold k0_pay6
  exact (congrFun (shapeCast_self _ shapeCasts_S1x1_S1x1) j).trans Ideal.ofBits_zero_f32
theorem zero_den (j : S1x1.Idx) : k0_pay7 (F := Ideal) j = 0 := by
  unfold k0_pay7
  exact (congrFun (shapeCast_self _ shapeCasts_S1x1_S1x1) j).trans Ideal.ofBits_zero_f32
theorem zero_mnum (j : S1x1.Idx) : k0_pay8 (F := Ideal) j = 0 := by
  unfold k0_pay8
  exact (congrFun (shapeCast_self _ shapeCasts_S1x1_S1x1) j).trans Ideal.ofBits_zero_f32
theorem zero_mden (j : S1x1.Idx) : k0_pay9 (F := Ideal) j = 0 := by
  unfold k0_pay9
  exact (congrFun (shapeCast_self _ shapeCasts_S1x1_S1x1) j).trans Ideal.ofBits_zero_f32

/-- The loss formed from the four totals. -/
theorem finish_val (a b c d : S1x1.Idx → EReal) (j : S1x1.Idx) :
    k0_pay5 (F := Ideal) a b c d j = finish (a j) (b j) (c j) (d j) := rfl

end Cert.KernelIdeal.Steps

end
-- ==== Proof.Words.lean ====
/-
  Comparisons of small 32-bit words.

  The programs decide which pairs (a, b) of samples count — those with a < b — by comparing 32-bit words as signed
  integers: one builds the words of 512·block + offset and asks whether the column's exceeds the row's, the other
  asks whether the row's is at least the column's and negates. Every word involved denotes a number below 8192, far
  from the sign bit, so the signed comparisons are the comparisons of the numbers.
-/
import Idealize.ShloMosaic.PureOps.Ideal
import Idealize.ShloMosaic.Lib.Affine

namespace Cert.PairLoss

open Idealize.ShloMosaic

/-- A number below 2³¹, as a 32-bit word read signed, is itself. -/
theorem toInt_small (x : ℕ) (hx : x < 2 ^ 31) : (BitVec.ofNat 32 x).toInt = (x : ℤ) := by
  rw [BitVec.toInt_eq_toNat_cond, BitVec.toNat_ofNat]
  have : x % 2 ^ 32 = x := Nat.mod_eq_of_lt (by omega)
  rw [this]
  split
  · rfl
  · omega

/-- Signed "greater than" on the words of two small numbers. -/
theorem sgt_small (x y : ℕ) (hx : x < 2 ^ 31) (hy : y < 2 ^ 31) :
    IntOp.cmpi .sgt (BitVec.ofNat 32 x) (BitVec.ofNat 32 y) = if y < x then 1#1 else 0#1 := by
  by_cases h : y < x
  · rw [if_pos h]
    exact IntOp.cmpi_sgt.mpr (by rw [toInt_small x hx, toInt_small y hy]; exact_mod_cast h)
  · rw [if_neg h]
    have : ¬ (IntOp.cmpi .sgt (BitVec.ofNat 32 x) (BitVec.ofNat 32 y) = 1#1) := fun hh => h (by
      have := IntOp.cmpi_sgt.mp hh
      rw [toInt_small x hx, toInt_small y hy] at this
      exact_mod_cast this)
    generalize IntOp.cmpi .sgt (BitVec.ofNat 32 x) (BitVec.ofNat 32 y) = b at this
    revert b; decide

/-- Signed "greater than or equal" on the words of two small numbers. -/
theorem sge_small (x y : ℕ) (hx : x < 2 ^ 31) (hy : y < 2 ^ 31) :
    IntOp.cmpi .sge (BitVec.ofNat 32 x) (BitVec.ofNat 32 y) = if y ≤ x then 1#1 else 0#1 := by
  by_cases h : y ≤ x
  · rw [if_pos h]
    exact IntOp.cmpi_sge.mpr (by rw [toInt_small x hx, toInt_small y hy]; exact_mod_cast h)
  · rw [if_neg h]
    have : ¬ (IntOp.cmpi .sge (BitVec.ofNat 32 x) (BitVec.ofNat 32 y) = 1#1) := fun hh => h (by
      have := IntOp.cmpi_sge.mp hh
      rw [toInt_small x hx, toInt_small y hy] at this
      exact_mod_cast this)
    generalize IntOp.cmpi .sge (BitVec.ofNat 32 x) (BitVec.ofNat 32 y) = b at this
    revert b; decide

/-- The word of block b's k-th sample: 512·b + k, computed on words without wrapping. -/
theorem block_word (b k : ℕ) (hb : b < 16) (hk : k < 512) :
    IntOp.addi (Scalar.muli (BitVec.ofNat 32 b) 512#32) (BitVec.ofNat 32 k) = BitVec.ofNat 32 (512 * b + k) := by
  apply BitVec.eq_of_toNat_eq
  simp only [IntOp.addi, Scalar.muli, IntOp.muli, BitVec.toNat_add, BitVec.toNat_mul, BitVec.toNat_ofNat]
  omega

/-- Adding the zero word changes nothing. -/
theorem plus_zero (a : ℕ) : IntOp.addi (BitVec.ofNat 32 a) 0#32 = BitVec.ofNat 32 a := by
  simp [IntOp.addi]

end Cert.PairLoss
-- ==== Proof.Tile.lean ====
/-
  One entry of the 512 × 512 tile a grid point works on.

  The tile is spanned by a column block (rows r) and a row block (entries c) of each of the predictions, targets and
  weights. Entry (r, c) carries the pairwise difference d and the pair weight w = ½ (W_r + W_c) of the two samples, and
  is kept when the row block's sample has the larger global number 512 · block + offset.
-/
import proofs.«139573_j29540785062440_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«139573_j29540785062440_2_alg».proof.Proof.Spec
import proofs.«139573_j29540785062440_2_alg».proof.Proof.Words

noncomputable section

namespace Cert.KernelIdeal.Tile

open Idealize.ShloMosaic Idealize.ShloMosaic.ValueIdx Cert.KernelIdeal Cert.KernelIdeal.Gen Cert.PairLoss Finset

/-- A column block spread over a tile reads, at (r, c), its row r. -/
theorem spread_column (v : S512x1.Idx → EReal) (r c : Fin 512) :
    broadcastTo S512x512 v broadcasts_S512x1_S512x512 (ix2 r c) = v (ix2 r (0 : Fin 1)) := by
  refine broadcastTo_apply v broadcasts_S512x1_S512x512 (ix2 r c) (ix2 r (0 : Fin 1)) fun ax => ?_
  match ax with
  | ⟨0, _⟩ => rfl
  | ⟨1, _⟩ => rfl

/-- A row block spread over a tile reads, at (r, c), its entry c. -/
theorem spread_row (v : S1x512.Idx → EReal) (r c : Fin 512) :
    broadcastTo S512x512 v broadcasts_S1x512_S512x512 (ix2 r c) = v (ix2 (0 : Fin 1) c) :=
  broadcastTo_1b_ab_apply v broadcasts_S1x512_S512x512 r c

/-- An entry of the tile is kept when the row block's sample has the larger global number. -/
theorem keep_val (i : grid0.Coords) (r c : Fin 512) :
    k0_pay12 i (ix2 r c) = if 512 * (i 0).val + r.val < 512 * (i 1).val + c.val then 1#1 else 0#1 := by
  unfold k0_pay12
  show IntOp.cmpi .sgt
      (IntOp.addi (Scalar.muli (BitVec.ofNat 32 (i 1).val) 512#32) (iota .tc S512x512 32 [1] iota_S512x512_d1_w32 (ix2 r c)))
      (IntOp.addi (Scalar.muli (BitVec.ofNat 32 (i 0).val) 512#32) (iota .tc S512x512 32 [0] iota_S512x512_d0_w32 (ix2 r c))) = _
  rw [iota_single_apply, iota_single_apply]
  have h0 : (i 0).val < 16 := (i 0).isLt
  have h1 : (i 1).val < 16 := (i 1).isLt
  show IntOp.cmpi .sgt (IntOp.addi (Scalar.muli (BitVec.ofNat 32 (i 1).val) 512#32) (BitVec.ofNat 32 c.val))
      (IntOp.addi (Scalar.muli (BitVec.ofNat 32 (i 0).val) 512#32) (BitVec.ofNat 32 r.val)) = _
  rw [block_word _ _ h1 c.isLt, block_word _ _ h0 r.isLt, sgt_small _ _ (by omega) (by omega)]

/-- The pair weight at entry (r, c) of the tile. -/
theorem weight_val (x4 : S512x1.Idx → EReal) (x5 : S1x512.Idx → EReal) (r c : Fin 512) :
    k0_pay11 (F := Ideal) x4 x5 (ix2 r c) = half * (x4 (ix2 r (0 : Fin 1)) + x5 (ix2 (0 : Fin 1) c)) := by
  unfold k0_pay11 k0_pay10
  simp only [shapeCast_self]
  show Ideal.ofBits .f32 0x3F000000#32 * (broadcastTo S512x512 x4 broadcasts_S512x1_S512x512 (ix2 r c)
      + broadcastTo S512x512 x5 broadcasts_S1x512_S512x512 (ix2 r c)) = _
  rw [spread_column, spread_row]
  rfl

/-- The numerator's summand d · d · w at entry (r, c) of the tile. -/
theorem pair_val (x0 x2 x4 : S512x1.Idx → EReal) (x1 x3 x5 : S1x512.Idx → EReal) (r c : Fin 512) :
    k0_pay13 (F := Ideal) x0 x1 x2 x3 x4 x5 (ix2 r c)
      = ((x0 (ix2 r (0 : Fin 1)) - x1 (ix2 (0 : Fin 1) c)) - (x2 (ix2 r (0 : Fin 1)) - x3 (ix2 (0 : Fin 1) c)))
        * ((x0 (ix2 r (0 : Fin 1)) - x1 (ix2 (0 : Fin 1) c)) - (x2 (ix2 r (0 : Fin 1)) - x3 (ix2 (0 : Fin 1) c)))
        * (half * (x4 (ix2 r (0 : Fin 1)) + x5 (ix2 (0 : Fin 1) c))) := by
  unfold k0_pay13
  simp only [shapeCast_self]
  show ((broadcastTo S512x512 x0 broadcasts_S512x1_S512x512 (ix2 r c) - broadcastTo S512x512 x1 broadcasts_S1x512_S512x512 (ix2 r c))
        - (broadcastTo S512x512 x2 broadcasts_S512x1_S512x512 (ix2 r c) - broadcastTo S512x512 x3 broadcasts_S1x512_S512x512 (ix2 r c)))
      * ((broadcastTo S512x512 x0 broadcasts_S512x1_S512x512 (ix2 r c) - broadcastTo S512x512 x1 broadcasts_S1x512_S512x512 (ix2 r c))
        - (broadcastTo S512x512 x2 broadcasts_S512x1_S512x512 (ix2 r c) - broadcastTo S512x512 x3 broadcasts_S1x512_S512x512 (ix2 r c)))
      * k0_pay11 (F := Ideal) x4 x5 (ix2 r c) = _
  rw [spread_column, spread_column, spread_row, spread_row, weight_val]

end Cert.KernelIdeal.Tile

end
-- ==== Proof.TileSum.lean ====
/-
  The kept entries of a tile add up to the block sums of the loss.

  When the six blocks a grid point holds are the column blocks bi and the row blocks bj of the prediction, target and
  weight columns X, Y, W, the tile's entry (r, c) is the pair of samples 512·bi + r and 512·bj + c, kept exactly when
  the first number is the smaller; so the tile's kept summands d·d·w and kept weights w add up to the numerator's and
  the denominator's block sums, and the column blocks' weighted squared errors and weights to the per-sample ones.
-/
import proofs.«139573_j29540785062440_2_alg».proof.Proof.Tile

noncomputable section

namespace Cert.KernelIdeal.TileSum

open Idealize.ShloMosaic Idealize.ShloMosaic.ValueIdx Cert.KernelIdeal Cert.KernelIdeal.Gen Cert.PairLoss Finset
open Cert.KernelIdeal.Tile

variable (i : grid0.Coords) (bi bj : ℕ) (X Y W : ℕ → EReal)
  (x0 x2 x4 : S512x1.Idx → EReal) (x1 x3 x5 : S1x512.Idx → EReal)

/-- The tile's kept summands are the numerator's block (bi, bj). -/
theorem tile_num (hi : (i 0).val = bi) (hj : (i 1).val = bj)
    (h0 : ∀ r : Fin 512, x0 (ix2 r (0 : Fin 1)) = X (512 * bi + r.val)) (h1 : ∀ c : Fin 512, x1 (ix2 (0 : Fin 1) c) = X (512 * bj + c.val))
    (h2 : ∀ r : Fin 512, x2 (ix2 r (0 : Fin 1)) = Y (512 * bi + r.val)) (h3 : ∀ c : Fin 512, x3 (ix2 (0 : Fin 1) c) = Y (512 * bj + c.val))
    (h4 : ∀ r : Fin 512, x4 (ix2 r (0 : Fin 1)) = W (512 * bi + r.val)) (h5 : ∀ c : Fin 512, x5 (ix2 (0 : Fin 1) c) = W (512 * bj + c.val)) :
    ∑ r : Fin 512, ∑ c : Fin 512, Scalar.select (k0_pay12 i (ix2 r c)) (k0_pay13 (F := Ideal) x0 x1 x2 x3 x4 x5 (ix2 r c))
        (Ideal.ofBits .f32 0x00000000#32)
      = numB X Y W bi bj := by
  unfold numB
  refine Finset.sum_congr rfl fun r _ => Finset.sum_congr rfl fun c _ => ?_
  rw [keep_val, pair_val, h0, h1, h2, h3, h4, h5, hi, hj]
  unfold numT dT wT
  by_cases h : 512 * bi + r.val < 512 * bj + c.val
  · rw [if_pos h, if_pos h]; exact select_one _ _
  · rw [if_neg h, if_neg h]; exact (select_zero _ _).trans Ideal.ofBits_zero_f32

/-- The tile's kept pair weights are the denominator's block (bi, bj). -/
theorem tile_den (hi : (i 0).val = bi) (hj : (i 1).val = bj)
    (h4 : ∀ r : Fin 512, x4 (ix2 r (0 : Fin 1)) = W (512 * bi + r.val)) (h5 : ∀ c : Fin 512, x5 (ix2 (0 : Fin 1) c) = W (512 * bj + c.val)) :
    ∑ r : Fin 512, ∑ c : Fin 512, Scalar.select (k0_pay12 i (ix2 r c)) (k0_pay11 (F := Ideal) x4 x5 (ix2 r c))
        (Ideal.ofBits .f32 0x00000000#32)
      = denB W bi bj := by
  unfold denB
  refine Finset.sum_congr rfl fun r _ => Finset.sum_congr rfl fun c _ => ?_
  rw [keep_val, weight_val, h4, h5, hi, hj]
  unfold denT wT
  by_cases h : 512 * bi + r.val < 512 * bj + c.val
  · rw [if_pos h, if_pos h]; exact select_one _ _
  · rw [if_neg h, if_neg h]; exact (select_zero _ _).trans Ideal.ofBits_zero_f32

/-- A diagonal point's column blocks give the squared error's block bi. -/
theorem column_mnum
    (h0 : ∀ r : Fin 512, x0 (ix2 r (0 : Fin 1)) = X (512 * bi + r.val)) (h2 : ∀ r : Fin 512, x2 (ix2 r (0 : Fin 1)) = Y (512 * bi + r.val))
    (h4 : ∀ r : Fin 512, x4 (ix2 r (0 : Fin 1)) = W (512 * bi + r.val)) :
    ∑ r : Fin 512, (x2 (ix2 r (0 : Fin 1)) - x0 (ix2 r (0 : Fin 1))) * (x2 (ix2 r (0 : Fin 1)) - x0 (ix2 r (0 : Fin 1))) * x4 (ix2 r (0 : Fin 1))
      = mnumB X Y W bi := by
  unfold mnumB mseT
  exact Finset.sum_congr rfl fun r _ => by rw [h0, h2, h4]

/-- and the weights' block bi. -/
theorem column_mden (h4 : ∀ r : Fin 512, x4 (ix2 r (0 : Fin 1)) = W (512 * bi + r.val)) :
    ∑ r : Fin 512, x4 (ix2 r (0 : Fin 1)) = mdenB W bi := by
  unfold mdenB
  exact Finset.sum_congr rfl fun r _ => h4 r

end Cert.KernelIdeal.TileSum

end
-- ==== Proof.Weights.lean ====
/-
  The per-sample weights.

  Both programs weigh sample a by how far its target lies from ½, relative to the targets' size and clamped to [0.1, 2]:

      W a = min 2 (max 0.1 (|½ − Y a| / (|½| + |Y a| + ε))).

  Both compute this column on the host from the target column by the same operations, so it is stated once, as that
  composition; nothing below depends on what the operations are.
-/
import proofs.«139573_j29540785062440_2_alg».proof.Proof.Spec

noncomputable section

namespace Cert.PairLoss

open Idealize.ShloMosaic

/-- The weight column of a target column. -/
def weights (hb : (⟨0, ![]⟩ : Shape).BroadcastsInDim ⟨2, ![8192, 1]⟩ (![] : Fin 0 → Fin 2))
    (y : FVec Ideal ⟨2, ![8192, 1]⟩ .f32) : FVec Ideal ⟨2, ![8192, 1]⟩ .f32 :=
  minimumf (broadcastInDim ⟨2, ![8192, 1]⟩ ![] hb (id (constant (F := Ideal) ⟨0, ![]⟩ .f32 0x40000000#32)))
    (maximumf (broadcastInDim ⟨2, ![8192, 1]⟩ ![] hb (id (constant (F := Ideal) ⟨0, ![]⟩ .f32 0x3DCCCCCD#32)))
      (Host.divf (Host.absf (subf (broadcastInDim ⟨2, ![8192, 1]⟩ ![] hb (constant (F := Ideal) ⟨0, ![]⟩ .f32 0x3F000000#32)) y))
        (addf (addf (broadcastInDim ⟨2, ![8192, 1]⟩ ![] hb (id (Host.absf (constant (F := Ideal) ⟨0, ![]⟩ .f32 0x3F000000#32)))) (Host.absf y))
          (broadcastInDim ⟨2, ![8192, 1]⟩ ![] hb (constant (F := Ideal) ⟨0, ![]⟩ .f32 0x322BCC77#32)))))

end Cert.PairLoss

end
-- ==== Proof.Entry.lean ====
/-
  What the kernel's windows hold when its region is entered, and the blocks a grid point reads.

  Before the region the host computes the weight column from the targets and relabels each of the three columns
  (predictions, targets, weights) as a row; the region then reads each column through 512-row blocks, block t / 16 at
  grid point t, and each row through 512-entry blocks, block t % 16. So at point t the six blocks are samples
  512·(t/16) + r of the three columns and samples 512·(t%16) + c of the same three columns.
-/
import proofs.«139573_j29540785062440_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic
import proofs.«139573_j29540785062440_2_alg».proof.Proof.Weights

set_option maxRecDepth 16384

noncomputable section

open Idealize.ShloMosaic Idealize.ShloMosaic.TcCoe Idealize.SL.Sem
open Idealize.ShloMosaic.Pipeline (Dat)

namespace Cert.KernelIdeal.Entry

open Cert.KernelIdeal Cert.KernelIdeal.Gen Cert.PairLoss Idealize.ShloMosaic.ValueIdx Idealize.ShloMosaic.StableHlo

variable (m : (ℓ : Loc nD τ sig) → Buf (Elt Ideal) ℓ) (c : Dev nD)

/-- The prediction and target columns as launched, and the weight column of the targets. -/
abbrev argX : S8192x1.Idx → EReal := m ((c : Thread nD τ).loc main_arg0)
abbrev argY : S8192x1.Idx → EReal := m ((c : Thread nD τ).loc main_arg1)
abbrev argW : S8192x1.Idx → EReal := weights bcast_S_S8192x1 (argY m c)

/-- The region finds the weight column computed from the targets; -/
theorem V_weights : (V m c main_v11 : S8192x1.Idx → EReal) = argW m c := by
  dsimp only [V, V0]
  simp only [hostOps0, hostOps0_1, hostOps0_2, List.flatten_cons, List.flatten_nil, List.append_nil, List.cons_append,
    List.nil_append]
  after_results
  rfl

/-- and the three columns relabelled as rows. -/
theorem V_rowX : (V m c main_v12 : S1x8192.Idx → EReal) = shapeCast S1x8192 (argX m c) shapeCasts_S8192x1_S1x8192 := by
  dsimp only [V, V0]
  simp only [hostOps0, hostOps0_1, hostOps0_2, List.flatten_cons, List.flatten_nil, List.append_nil, List.cons_append,
    List.nil_append]
  after_results
  rfl

theorem V_rowY : (V m c main_v13 : S1x8192.Idx → EReal) = shapeCast S1x8192 (argY m c) shapeCasts_S8192x1_S1x8192 := by
  dsimp only [V, V0]
  simp only [hostOps0, hostOps0_1, hostOps0_2, List.flatten_cons, List.flatten_nil, List.append_nil, List.cons_append,
    List.nil_append]
  after_results
  rfl

theorem V_rowW : (V m c main_v14 : S1x8192.Idx → EReal) = shapeCast S1x8192 (argW m c) shapeCasts_S8192x1_S1x8192 := by
  dsimp only [V, V0]
  simp only [hostOps0, hostOps0_1, hostOps0_2, List.flatten_cons, List.flatten_nil, List.append_nil, List.cons_append,
    List.nil_append]
  after_results
  rfl

/-- A row of the relabelled column, read at entry b, is the column's row b. -/
theorem row_read (v : S8192x1.Idx → EReal) (b : Fin 8192) :
    shapeCast S1x8192 v shapeCasts_S8192x1_S1x8192 (ix2 (0 : Fin 1) b) = v (ix2 b (0 : Fin 1)) :=
  shapeCast_apply v shapeCasts_S8192x1_S1x8192 _ _ (by
    rw [Shape.rowMajor_val_two, Shape.rowMajor_val_two]
    show b.val * 1 + 0 = 0 * 8192 + b.val
    omega)

/-- Grid point t is block row t / 16 and block column t % 16 of the pair matrix. -/
theorem coords_val : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- The column windows read block t / 16, the row windows block t % 16. -/
theorem index_col0 : ∀ t : Fin cfg0.N, win0_0.index t 0 = t.val / 16 ∧ win0_0.index t 1 = 0 :=
  (by decide +kernel : ∀ t : Fin grid0.N, win0_0.index t 0 = t.val / 16 ∧ win0_0.index t 1 = 0)
theorem index_col2 : ∀ t : Fin cfg0.N, win0_2.index t 0 = t.val / 16 ∧ win0_2.index t 1 = 0 :=
  (by decide +kernel : ∀ t : Fin grid0.N, win0_2.index t 0 = t.val / 16 ∧ win0_2.index t 1 = 0)
theorem index_col4 : ∀ t : Fin cfg0.N, win0_4.index t 0 = t.val / 16 ∧ win0_4.index t 1 = 0 :=
  (by decide +kernel : ∀ t : Fin grid0.N, win0_4.index t 0 = t.val / 16 ∧ win0_4.index t 1 = 0)
theorem index_row1 : ∀ t : Fin cfg0.N, win0_1.index t 0 = 0 ∧ win0_1.index t 1 = t.val % 16 :=
  (by decide +kernel : ∀ t : Fin grid0.N, win0_1.index t 0 = 0 ∧ win0_1.index t 1 = t.val % 16)
theorem index_row3 : ∀ t : Fin cfg0.N, win0_3.index t 0 = 0 ∧ win0_3.index t 1 = t.val % 16 :=
  (by decide +kernel : ∀ t : Fin grid0.N, win0_3.index t 0 = 0 ∧ win0_3.index t 1 = t.val % 16)
theorem index_row5 : ∀ t : Fin cfg0.N, win0_5.index t 0 = 0 ∧ win0_5.index t 1 = t.val % 16 :=
  (by decide +kernel : ∀ t : Fin grid0.N, win0_5.index t 0 = 0 ∧ win0_5.index t 1 = t.val % 16)

theorem point_lt (t : Fin cfg0.N) : t.val < 256 := lt_of_lt_of_eq t.isLt (show cfg0.N = 256 from N_0)

/-- Point t's column block of the predictions is their samples 512·(t/16) + r. -/
theorem colX (t : Fin cfg0.N) (r : Fin 512) :
    (iblk m c 0 t : S512x1.Idx → EReal) (ix2 r (0 : Fin 1)) = col (argX m c) (512 * (t.val / 16) + r.val) := by
  have hN := point_lt t
  have hlt : 512 * (t.val / 16) + r.val < 8192 := by have := r.isLt; omega
  rw [← col_eq (argX m c) _ hlt 0]
  unfold iblk
  rw [View.read_apply]
  show V m c main_arg0 _ = _
  rw [V_main_arg0]
  refine congrArg (argX m c) (funext fun a => Fin.ext ?_)
  match a with
  | ⟨0, _⟩ => show win0_0.index t 0 * 512 + 1 * r.val = 512 * (t.val / 16) + r.val; rw [(index_col0 t).1]; omega
  | ⟨1, _⟩ => show win0_0.index t 1 * 1 + 1 * 0 = 0; rw [(index_col0 t).2]

/-- Point t's column block of the targets. -/
theorem colY (t : Fin cfg0.N) (r : Fin 512) :
    (iblk m c 2 t : S512x1.Idx → EReal) (ix2 r (0 : Fin 1)) = col (argY m c) (512 * (t.val / 16) + r.val) := by
  have hN := point_lt t
  have hlt : 512 * (t.val / 16) + r.val < 8192 := by have := r.isLt; omega
  rw [← col_eq (argY m c) _ hlt 0]
  unfold iblk
  rw [View.read_apply]
  show V m c main_arg1 _ = _
  rw [V_main_arg1]
  refine congrArg (argY m c) (funext fun a => Fin.ext ?_)
  match a with
  | ⟨0, _⟩ => show win0_2.index t 0 * 512 + 1 * r.val = 512 * (t.val / 16) + r.val; rw [(index_col2 t).1]; omega
  | ⟨1, _⟩ => show win0_2.index t 1 * 1 + 1 * 0 = 0; rw [(index_col2 t).2]

/-- Point t's column block of the weights. -/
theorem colW (t : Fin cfg0.N) (r : Fin 512) :
    (iblk m c 4 t : S512x1.Idx → EReal) (ix2 r (0 : Fin 1)) = col (argW m c) (512 * (t.val / 16) + r.val) := by
  have hN := point_lt t
  have hlt : 512 * (t.val / 16) + r.val < 8192 := by have := r.isLt; omega
  rw [← col_eq (argW m c) _ hlt 0]
  unfold iblk
  rw [View.read_apply]
  show V m c main_v11 _ = _
  rw [V_weights]
  refine congrArg (argW m c) (funext fun a => Fin.ext ?_)
  match a with
  | ⟨0, _⟩ => show win0_4.index t 0 * 512 + 1 * r.val = 512 * (t.val / 16) + r.val; rw [(index_col4 t).1]; omega
  | ⟨1, _⟩ => show win0_4.index t 1 * 1 + 1 * 0 = 0; rw [(index_col4 t).2]

/-- Point t's row block of the predictions is their samples 512·(t%16) + k. -/
theorem rowX (t : Fin cfg0.N) (k : Fin 512) :
    (iblk m c 1 t : S1x512.Idx → EReal) (ix2 (0 : Fin 1) k) = col (argX m c) (512 * (t.val % 16) + k.val) := by
  have hlt : 512 * (t.val % 16) + k.val < 8192 := by have := k.isLt; omega
  rw [← col_eq (argX m c) _ hlt 0, ← row_read (argX m c) ⟨512 * (t.val % 16) + k.val, hlt⟩]
  unfold iblk
  rw [View.read_apply]
  show V m c main_v12 _ = _
  rw [V_rowX]
  refine congrArg (shapeCast S1x8192 (argX m c) shapeCasts_S8192x1_S1x8192) (funext fun a => Fin.ext ?_)
  match a with
  | ⟨0, _⟩ => show win0_1.index t 0 * 1 + 1 * 0 = 0; rw [(index_row1 t).1]
  | ⟨1, _⟩ => show win0_1.index t 1 * 512 + 1 * k.val = 512 * (t.val % 16) + k.val; rw [(index_row1 t).2]; omega

/-- Point t's row block of the targets. -/
theorem rowY (t : Fin cfg0.N) (k : Fin 512) :
    (iblk m c 3 t : S1x512.Idx → EReal) (ix2 (0 : Fin 1) k) = col (argY m c) (512 * (t.val % 16) + k.val) := by
  have hlt : 512 * (t.val % 16) + k.val < 8192 := by have := k.isLt; omega
  rw [← col_eq (argY m c) _ hlt 0, ← row_read (argY m c) ⟨512 * (t.val % 16) + k.val, hlt⟩]
  unfold iblk
  rw [View.read_apply]
  show V m c main_v13 _ = _
  rw [V_rowY]
  refine congrArg (shapeCast S1x8192 (argY m c) shapeCasts_S8192x1_S1x8192) (funext fun a => Fin.ext ?_)
  match a with
  | ⟨0, _⟩ => show win0_3.index t 0 * 1 + 1 * 0 = 0; rw [(index_row3 t).1]
  | ⟨1, _⟩ => show win0_3.index t 1 * 512 + 1 * k.val = 512 * (t.val % 16) + k.val; rw [(index_row3 t).2]; omega

/-- Point t's row block of the weights. -/
theorem rowW (t : Fin cfg0.N) (k : Fin 512) :
    (iblk m c 5 t : S1x512.Idx → EReal) (ix2 (0 : Fin 1) k) = col (argW m c) (512 * (t.val % 16) + k.val) := by
  have hlt : 512 * (t.val % 16) + k.val < 8192 := by have := k.isLt; omega
  rw [← col_eq (argW m c) _ hlt 0, ← row_read (argW m c) ⟨512 * (t.val % 16) + k.val, hlt⟩]
  unfold iblk
  rw [View.read_apply]
  show V m c main_v14 _ = _
  rw [V_rowW]
  refine congrArg (shapeCast S1x8192 (argW m c) shapeCasts_S8192x1_S1x8192) (funext fun a => Fin.ext ?_)
  match a with
  | ⟨0, _⟩ => show win0_5.index t 0 * 1 + 1 * 0 = 0; rw [(index_row5 t).1]
  | ⟨1, _⟩ => show win0_5.index t 1 * 512 + 1 * k.val = 512 * (t.val % 16) + k.val; rw [(index_row5 t).2]; omega

end Cert.KernelIdeal.Entry

end
-- ==== Proof.Running.lean ====
/-
  The accumulators after every grid point, and the loss the last point stores.

  Point by point, in row-major order over the 16 × 16 grid: the first point starts the four accumulators at zero and adds
  its block sums; every later point adds its tile's pair sums, and on the diagonal its column blocks' per-sample sums. By
  induction on the point the accumulators therefore hold, after point n, the block sums of the points 0 … n; after the
  last point these are the whole sums of the loss, and the value the last point stores is the loss.
-/
import proofs.«139573_j29540785062440_2_alg».proof.Proof.Pieces
import proofs.«139573_j29540785062440_2_alg».proof.Proof.Steps
import proofs.«139573_j29540785062440_2_alg».proof.Proof.TileSum
import proofs.«139573_j29540785062440_2_alg».proof.Proof.Entry

set_option maxRecDepth 16384

noncomputable section

open Idealize.ShloMosaic Idealize.ShloMosaic.TcCoe Idealize.SL.Sem
open Idealize.ShloMosaic.Pipeline (Dat)

namespace Cert.KernelIdeal.Running

open Cert.KernelIdeal Cert.KernelIdeal.Gen Cert.PairLoss Idealize.ShloMosaic.ValueIdx Finset
open Cert.KernelIdeal.Pieces Cert.KernelIdeal.Steps Cert.KernelIdeal.TileSum Cert.KernelIdeal.Entry

variable (m : (ℓ : Loc nD τ sig) → Buf (Elt Ideal) ℓ) (c : Dev nD)

/-- The three columns as functions of the sample's number. -/
abbrev Xs : ℕ → EReal := col (argX m c)
abbrev Ys : ℕ → EReal := col (argY m c)
abbrev Ws : ℕ → EReal := col (argW m c)

/-- The four accumulators' contents, in the order numerator, denominator of the contrastive term, then of the squared error. -/
abbrev Acc : Type := (S1x1.Idx → EReal) × (S1x1.Idx → EReal) × (S1x1.Idx → EReal) × (S1x1.Idx → EReal)

/-! ## One point's additions -/

/-- What point t makes of an accumulator holding `prev`. -/
def stepNum (t : Fin cfg0.N) (prev : S1x1.Idx → EReal) : S1x1.Idx → EReal :=
  k0_pay1 (F := Ideal) (k0_pay12 (grid0.coords t)) (k0_pay13 (iblk m c 0 t) (iblk m c 1 t) (iblk m c 2 t) (iblk m c 3 t) (iblk m c 4 t) (iblk m c 5 t)) (Ideal.ofBits .f32 0x00000000#32) prev
def stepDen (t : Fin cfg0.N) (prev : S1x1.Idx → EReal) : S1x1.Idx → EReal :=
  k0_pay2 (F := Ideal) (k0_pay11 (iblk m c 4 t) (iblk m c 5 t)) (k0_pay12 (grid0.coords t)) prev
def stepMnum (t : Fin cfg0.N) (prev : S1x1.Idx → EReal) : S1x1.Idx → EReal :=
  k0_pay3 (F := Ideal) (iblk m c 0 t) (iblk m c 2 t) (k0_pay10 (iblk m c 4 t)) prev
def stepMden (t : Fin cfg0.N) (prev : S1x1.Idx → EReal) : S1x1.Idx → EReal :=
  k0_pay4 (F := Ideal) (k0_pay10 (iblk m c 4 t)) prev

/-- Point t adds block (t / 16, t % 16) of the numerator; -/
theorem stepNum_val (t : Fin cfg0.N) (prev : S1x1.Idx → EReal) (j : S1x1.Idx) :
    stepNum m c t prev j = prev j + numB (Xs m c) (Ys m c) (Ws m c) (t.val / 16) (t.val % 16) := by
  have e1 : stepNum m c t prev j
      = prev j + ∑ r : Fin 512, ∑ k : Fin 512, Scalar.select (k0_pay12 (grid0.coords t) (ix2 r k))
          (k0_pay13 (F := Ideal) (iblk m c 0 t) (iblk m c 1 t) (iblk m c 2 t) (iblk m c 3 t) (iblk m c 4 t) (iblk m c 5 t) (ix2 r k)) (Ideal.ofBits .f32 0x00000000#32) :=
    num_step (k0_pay12 (grid0.coords t)) (k0_pay13 (F := Ideal) (iblk m c 0 t) (iblk m c 1 t) (iblk m c 2 t) (iblk m c 3 t) (iblk m c 4 t) (iblk m c 5 t)) (Ideal.ofBits .f32 0x00000000#32) prev j
  have e2 : (∑ r : Fin 512, ∑ k : Fin 512, Scalar.select (k0_pay12 (grid0.coords t) (ix2 r k))
          (k0_pay13 (F := Ideal) (iblk m c 0 t) (iblk m c 1 t) (iblk m c 2 t) (iblk m c 3 t) (iblk m c 4 t) (iblk m c 5 t) (ix2 r k)) (Ideal.ofBits .f32 0x00000000#32))
      = numB (Xs m c) (Ys m c) (Ws m c) (t.val / 16) (t.val % 16) :=
    tile_num (grid0.coords t) (t.val / 16) (t.val % 16) (Xs m c) (Ys m c) (Ws m c)
      (iblk m c 0 t) (iblk m c 2 t) (iblk m c 4 t) (iblk m c 1 t) (iblk m c 3 t) (iblk m c 5 t)
      (coords_val t).1 (coords_val t).2 (colX m c t) (rowX m c t) (colY m c t) (rowY m c t) (colW m c t) (rowW m c t)
  exact e1.trans (congrArg (prev j + ·) e2)

/-- of the denominator; -/
theorem stepDen_val (t : Fin cfg0.N) (prev : S1x1.Idx → EReal) (j : S1x1.Idx) :
    stepDen m c t prev j = prev j + denB (Ws m c) (t.val / 16) (t.val % 16) := by
  unfold stepDen
  refine (den_step (k0_pay11 (F := Ideal) (iblk m c 4 t) (iblk m c 5 t)) (k0_pay12 (grid0.coords t)) prev j).trans ?_
  exact congrArg (prev j + ·) (tile_den (grid0.coords t) (t.val / 16) (t.val % 16) (Ws m c) (iblk m c 4 t) (iblk m c 5 t)
    (coords_val t).1 (coords_val t).2 (colW m c t) (rowW m c t))

/-- and, on the diagonal, block t / 16 of the weighted squared errors -/
theorem stepMnum_val (t : Fin cfg0.N) (prev : S1x1.Idx → EReal) (j : S1x1.Idx) :
    stepMnum m c t prev j = prev j + mnumB (Xs m c) (Ys m c) (Ws m c) (t.val / 16) := by
  unfold stepMnum
  rw [weights_eq (iblk m c 4 t)]
  refine (mnum_step (iblk m c 0 t) (iblk m c 2 t) (iblk m c 4 t) prev j).trans ?_
  exact congrArg (prev j + ·) (column_mnum (t.val / 16) (Xs m c) (Ys m c) (Ws m c) (iblk m c 0 t) (iblk m c 2 t) (iblk m c 4 t)
    (colX m c t) (colY m c t) (colW m c t))

/-- and of the weights. -/
theorem stepMden_val (t : Fin cfg0.N) (prev : S1x1.Idx → EReal) (j : S1x1.Idx) :
    stepMden m c t prev j = prev j + mdenB (Ws m c) (t.val / 16) := by
  unfold stepMden
  rw [weights_eq (iblk m c 4 t)]
  refine (mden_step (iblk m c 4 t) prev j).trans ?_
  exact congrArg (prev j + ·) (column_mden (t.val / 16) (Ws m c) (iblk m c 4 t) (colW m c t))

/-- An off-diagonal point moves the pair sums only; a diagonal point moves all four. -/
def offStep (t : Fin cfg0.N) (p : Acc) : Acc := (stepNum m c t p.1, stepDen m c t p.2.1, p.2.2.1, p.2.2.2)
def diagStep (t : Fin cfg0.N) (p : Acc) : Acc :=
  (stepNum m c t p.1, stepDen m c t p.2.1, stepMnum m c t p.2.2.1, stepMden m c t p.2.2.2)
/-- The loss the last point forms from the accumulators as it leaves them. -/
def lastOut (t : Fin cfg0.N) (p : Acc) : S1x1.Idx → EReal :=
  k0_pay5 (F := Ideal) (diagStep m c t p).2.2.1 (diagStep m c t p).2.2.2 (diagStep m c t p).1 (diagStep m c t p).2.1

/-! ## The cases of the body, as steps -/

theorem at_first (t : Fin cfg0.N) (h0 : t.val % 256 = 0) (h1 : t.val % 17 = 0) (h2 : ¬t.val % 256 = 255) :
    (outsAt0 m c t.val t.isLt).2 = diagStep m c t ((k0_pay6 (F := Ideal), k0_pay7 (F := Ideal), k0_pay8 (F := Ideal), k0_pay9 (F := Ideal)) : Acc) :=
  (congrArg Prod.snd (outsAt0_A m c t h0 h1 h2)).trans
    (congrArg₂ Prod.mk (first_num (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t))
      (congrArg₂ Prod.mk (first_den (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t))
        (congrArg₂ Prod.mk (first_mnum (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t))
          (first_mden (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t)))))

theorem at_off (t : Fin cfg0.N) (h0 : ¬t.val % 256 = 0) (h1 : ¬t.val % 17 = 0) (h2 : ¬t.val % 256 = 255) :
    (outsAt0 m c t.val t.isLt).2 = offStep m c t (outsAt0 m c (t.val - 1) (Nat.lt_of_le_of_lt (Nat.sub_le _ _) t.isLt)).2 :=
  (congrArg Prod.snd (outsAt0_B m c t h0 h1 h2)).trans
    (congrArg₂ Prod.mk (off_num (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)
      (congrArg₂ Prod.mk (off_den (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) rfl))

theorem at_diag (t : Fin cfg0.N) (h0 : ¬t.val % 256 = 0) (h1 : t.val % 17 = 0) (h2 : ¬t.val % 256 = 255) :
    (outsAt0 m c t.val t.isLt).2 = diagStep m c t (outsAt0 m c (t.val - 1) (Nat.lt_of_le_of_lt (Nat.sub_le _ _) t.isLt)).2 :=
  (congrArg Prod.snd (outsAt0_C m c t h0 h1 h2)).trans
    (congrArg₂ Prod.mk (diag_num (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)
      (congrArg₂ Prod.mk (diag_den (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)
        (congrArg₂ Prod.mk (diag_mnum (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)
          (diag_mden (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2))))

theorem at_last (t : Fin cfg0.N) (h0 : ¬t.val % 256 = 0) (h1 : t.val % 17 = 0) (h2 : t.val % 256 = 255) :
    (outsAt0 m c t.val t.isLt).2 = diagStep m c t (outsAt0 m c (t.val - 1) (Nat.lt_of_le_of_lt (Nat.sub_le _ _) t.isLt)).2 :=
  (congrArg Prod.snd (outsAt0_D m c t h0 h1 h2)).trans
    (congrArg₂ Prod.mk (last_num (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)
      (congrArg₂ Prod.mk (last_den (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)
        (congrArg₂ Prod.mk (last_mnum (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)
          (last_mden (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2))))

theorem at_last_out (t : Fin cfg0.N) (h0 : ¬t.val % 256 = 0) (h1 : t.val % 17 = 0) (h2 : t.val % 256 = 255) :
    (outsAt0 m c t.val t.isLt).1 = lastOut m c t (outsAt0 m c (t.val - 1) (Nat.lt_of_le_of_lt (Nat.sub_le _ _) t.isLt)).2 :=
  (congrArg Prod.fst (outsAt0_D m c t h0 h1 h2)).trans (last_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)

/-! ## The running totals -/

/-- The block sums of the points 0 … n. -/
def tot0 (n : ℕ) : EReal := ∑ k ∈ range (n + 1), numB (Xs m c) (Ys m c) (Ws m c) (k / 16) (k % 16)
def tot1 (n : ℕ) : EReal := ∑ k ∈ range (n + 1), denB (Ws m c) (k / 16) (k % 16)
def tot2 (n : ℕ) : EReal := ∑ k ∈ range (n + 1), if k % 17 = 0 then mnumB (Xs m c) (Ys m c) (Ws m c) (k / 16) else 0
def tot3 (n : ℕ) : EReal := ∑ k ∈ range (n + 1), if k % 17 = 0 then mdenB (Ws m c) (k / 16) else 0
/-- The accumulators holding them. -/
def consts (n : ℕ) : Acc := (fun _ => tot0 m c n, fun _ => tot1 m c n, fun _ => tot2 m c n, fun _ => tot3 m c n)

theorem first_consts (t : Fin cfg0.N) (ht : t.val = 0) :
    diagStep m c t ((k0_pay6 (F := Ideal), k0_pay7 (F := Ideal), k0_pay8 (F := Ideal), k0_pay9 (F := Ideal)) : Acc) = consts m c 0 := by
  unfold diagStep consts
  refine congrArg₂ Prod.mk (funext fun j => ?_) (congrArg₂ Prod.mk (funext fun j => ?_) (congrArg₂ Prod.mk (funext fun j => ?_) (funext fun j => ?_)))
  · rw [stepNum_val, ht]; unfold tot0; rw [Finset.sum_range_one]; exact (congrArg (· + _) (zero_num j)).trans (zero_add _)
  · rw [stepDen_val, ht]; unfold tot1; rw [Finset.sum_range_one]; exact (congrArg (· + _) (zero_den j)).trans (zero_add _)
  · rw [stepMnum_val, ht]; unfold tot2; rw [Finset.sum_range_one, if_pos (by decide)]; exact (congrArg (· + _) (zero_mnum j)).trans (zero_add _)
  · rw [stepMden_val, ht]; unfold tot3; rw [Finset.sum_range_one, if_pos (by decide)]; exact (congrArg (· + _) (zero_mden j)).trans (zero_add _)

theorem off_consts (t : Fin cfg0.N) (n : ℕ) (ht : t.val = n + 1) (h1 : ¬(n + 1) % 17 = 0) :
    offStep m c t (consts m c n) = consts m c (n + 1) := by
  unfold offStep consts
  refine congrArg₂ Prod.mk (funext fun j => ?_) (congrArg₂ Prod.mk (funext fun j => ?_) (congrArg₂ Prod.mk (funext fun j => ?_) (funext fun j => ?_)))
  · rw [stepNum_val, ht]; unfold tot0; exact (Finset.sum_range_succ _ (n + 1)).symm
  · rw [stepDen_val, ht]; unfold tot1; exact (Finset.sum_range_succ _ (n + 1)).symm
  · unfold tot2; rw [Finset.sum_range_succ _ (n + 1), if_neg h1, add_zero]
  · unfold tot3; rw [Finset.sum_range_succ _ (n + 1), if_neg h1, add_zero]

theorem diag_consts (t : Fin cfg0.N) (n : ℕ) (ht : t.val = n + 1) (h1 : (n + 1) % 17 = 0) :
    diagStep m c t (consts m c n) = consts m c (n + 1) := by
  unfold diagStep consts
  refine congrArg₂ Prod.mk (funext fun j => ?_) (congrArg₂ Prod.mk (funext fun j => ?_) (congrArg₂ Prod.mk (funext fun j => ?_) (funext fun j => ?_)))
  · rw [stepNum_val, ht]; unfold tot0; exact (Finset.sum_range_succ _ (n + 1)).symm
  · rw [stepDen_val, ht]; unfold tot1; exact (Finset.sum_range_succ _ (n + 1)).symm
  · rw [stepMnum_val, ht]; unfold tot2; rw [Finset.sum_range_succ _ (n + 1), if_pos h1]
  · rw [stepMden_val, ht]; unfold tot3; rw [Finset.sum_range_succ _ (n + 1), if_pos h1]

/-- After point n the accumulators hold the block sums of the points 0 … n. -/
theorem running : ∀ (n : ℕ) (h : n < cfg0.N), (outsAt0 m c n h).2 = consts m c n
  | 0, h => (at_first m c ⟨0, h⟩ rfl rfl (show ¬(0 : ℕ) % 256 = 255 by decide)).trans (first_consts m c ⟨0, h⟩ rfl)
  | n + 1, h => by
    have hN : n + 1 < 256 := lt_of_lt_of_eq h (show cfg0.N = 256 from N_0)
    have ih : (outsAt0 m c n (Nat.lt_of_succ_lt h)).2 = consts m c n := running n (Nat.lt_of_succ_lt h)
    have h0 : ¬(n + 1) % 256 = 0 := by omega
    by_cases h1 : (n + 1) % 17 = 0
    · by_cases h2 : (n + 1) % 256 = 255
      · exact (at_last m c ⟨n + 1, h⟩ h0 h1 h2).trans ((congrArg (diagStep m c ⟨n + 1, h⟩) ih).trans (diag_consts m c ⟨n + 1, h⟩ n rfl h1))
      · exact (at_diag m c ⟨n + 1, h⟩ h0 h1 h2).trans ((congrArg (diagStep m c ⟨n + 1, h⟩) ih).trans (diag_consts m c ⟨n + 1, h⟩ n rfl h1))
    · have h2 : ¬(n + 1) % 256 = 255 := by omega
      exact (at_off m c ⟨n + 1, h⟩ h0 h1 h2).trans ((congrArg (offStep m c ⟨n + 1, h⟩) ih).trans (off_consts m c ⟨n + 1, h⟩ n rfl h1))

/-- The last point stores the loss of the three columns. -/
theorem last_value (h : 255 < cfg0.N) :
    (outsAt0 m c 255 h).1 = fun _ => loss (Xs m c) (Ys m c) (Ws m c) := by
  have ih : (outsAt0 m c 254 (Nat.lt_of_succ_lt h)).2 = consts m c 254 := running m c 254 (Nat.lt_of_succ_lt h)
  refine (at_last_out m c ⟨255, h⟩ (show ¬(255 : ℕ) % 256 = 0 by decide) (show (255 : ℕ) % 17 = 0 by decide) (show (255 : ℕ) % 256 = 255 by decide)).trans ((congrArg (lastOut m c ⟨255, h⟩) ih).trans ?_)
  unfold lastOut
  rw [diag_consts m c ⟨255, h⟩ 254 rfl (show (254 + 1) % 17 = 0 by decide)]
  funext j
  refine (finish_val _ _ _ _ j).trans ?_
  show finish (tot2 m c 255) (tot3 m c 255) (tot0 m c 255) (tot1 m c 255) = _
  unfold tot0 tot1 tot2 tot3 loss
  rw [num_blocks, den_blocks, mnum_blocks, mden_blocks]

end Cert.KernelIdeal.Running

end
-- ==== Proof.KernelRun.lean ====
/-
  The kernel's run, read: its result is the loss of its three columns.

  The output window is written back once, after the last grid point, and its one block is the whole 1 × 1 output array;
  so the array ends holding the value the last point stored, the loss. The host then relabels that array as the scalar
  result. The argument arrays end as they began.
-/
import proofs.«139573_j29540785062440_2_alg».proof.Proof.Running

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.PairLoss Idealize.ShloMosaic.ValueIdx Idealize.ShloMosaic.StableHlo
open Cert.KernelIdeal.Running Cert.KernelIdeal.Entry

variable (m : (ℓ : Loc nD τ sig) → Buf (Elt Ideal) ℓ) (ρ : Dev nD → PrngReg)

/-- The loss of the columns core c was launched with. -/
abbrev lossOf (c : Dev nD) : EReal := loss (Xs m c) (Ys m c) (Ws m c)

/-- The output array holding it. -/
abbrev outArr (c : Dev nD) : Buf (Elt Ideal) ((c : Thread nD τ).loc main_v15) := fun _ => lossOf m c

/-- The grid's last point. -/
abbrev tLast : Fin cfg0.N := ⟨255, by rw [show cfg0.N = 256 from N_0]; decide⟩

/-- The one write-back, after the last point, writes the loss. -/
theorem flushed_eq (c : Dev nD) (t : Fin cfg0.N) (hf : (cfg0.win 6).flush t = true) :
    (dats m 0 c).flushed 6 t = ((cfg0.win 6).blk t).view.read (Elt Ideal) (outArr m c) := by
  have hN : cfg0.N = 256 := N_0
  have h255 : t.val = 255 := by have := (flush0_6 t).mp hf; have := t.isLt; omega
  obtain rfl : t = tLast := Fin.ext h255
  show (cfg0.win 6).cut (grid0.coords tLast) ((dats m 0 c).after 6 tLast) = _
  rw [after0_6]
  refine (congrArg ((cfg0.win 6).cut (grid0.coords tLast)) (last_value m c tLast.isLt)).trans ?_
  rfl

/-- So the output array ends holding the loss: the last point's block is the whole array. -/
theorem final_out (c : Dev nD) : (dats m 0 c).arrAt 6 cfg0.N = outArr m c :=
  (dats m 0 c).arrAt_eq_of_cover 6 (outArr m c) (flushed_eq m c) fun i =>
    ⟨tLast, (flush0_6 tLast).mpr rfl, by
      show i ∈ ((View.whole main_v15).slice (win0_6.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_6.index tLast 0 * win0_6.size 0 ≤ (i 0 : Nat) ∧ (i 0 : Nat) < win0_6.index tLast 0 * win0_6.size 0 + win0_6.xsize (grid0.coords tLast) 0
                  rw [show win0_6.index tLast 0 * win0_6.size 0 = 0 from by decide +kernel, show win0_6.xsize (grid0.coords tLast) 0 = 1 from by decide +kernel]; omega
      | ⟨1, _⟩ => show win0_6.index tLast 1 * win0_6.size 1 ≤ (i 1 : Nat) ∧ (i 1 : Nat) < win0_6.index tLast 1 * win0_6.size 1 + win0_6.xsize (grid0.coords tLast) 1
                  rw [show win0_6.index tLast 1 * win0_6.size 1 = 0 from by decide +kernel, show win0_6.xsize (grid0.coords tLast) 1 = 1 from by decide +kernel]; omega⟩

/-- The host's last line relabels the 1 × 1 array as the scalar result. -/
theorem tail_value (c : Dev nD) :
    Pipeline.afterTail₀ cfgs (dats m) 0 (V0 m) [hostOps1] c main_v16 = fun _ => lossOf m c := by
  have hw : Pipeline.withArrays (cfgs 0).spec c (V0 m c) (fun w => (dats m 0 c).arrAt w (cfgs 0).N) (Proc.tc.devRef main_v15)
      = fun _ => lossOf m c :=
    (Pipeline.withArrays_arr spec0 launch0.win.arr_inj c _ _ 6).trans (final_out m c)
  unfold Pipeline.afterTail₀
  show StableHlo.after hostOps1 _ (Proc.devRef .tc main_v16) = _
  after_results
  rw [hw]
  rfl

/-- The run: every weakly fair execution ends with the result at the loss and the arguments unchanged. -/
theorem run : θ_run defs (onTc (τ := τ) (main (F := Ideal))) ⟨m, fun _ => 0, ρ⟩ fun r => ∀ c : Dev nD,
      r.2.mem ((c : Thread nD τ).loc main_v16) = (fun _ => lossOf m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v16 (Pipeline.mem_restRefs_of main_v16 (by decide) (by decide))).trans (tail_value m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c)))⟩)
    (run_main m ρ)

end Cert.KernelIdeal.Result

end
-- ==== Proof.RefValue.lean ====
/-
  The reference's result is the loss of its three columns.

  The reference forms the whole 8192 × 8192 matrix of pairs at once: entry (a, b) of each operand matrix is sample a or
  sample b of a column, the kept entries are those above the diagonal (a < b), and each of its four sums runs over a
  whole array. Its test for missing targets never fires on the extended reals, where every number equals itself, so the
  guarded columns are the columns. Read index by index its result is the loss of the prediction, target and weight
  columns.
-/
import proofs.«139573_j29540785062440_2_alg».proof.Proof.Gen.ReferenceIdeal.Read
import Idealize.ShloMosaic.Lib.ValueIdx
import proofs.«139573_j29540785062440_2_alg».proof.Proof.Weights
import proofs.«139573_j29540785062440_2_alg».proof.Proof.Words

noncomputable section

namespace Cert.ReferenceIdeal.RefValue

open Idealize.ShloMosaic Idealize.ShloMosaic.ValueIdx Cert.ReferenceIdeal Cert.ReferenceIdeal.Gen Cert.ReferenceIdeal.Read
open Cert.PairLoss Finset

variable (x y : S8192x1.Idx → EReal)

/-- The reference's weight column is the weight column of the targets. -/
theorem weights_eq : val_main_v11 (F := Ideal) y = weights bcast_S_S8192x1 y := rfl

/-- A column read at row a. -/
theorem col_at (v : S8192x1.Idx → EReal) (a : Fin 8192) (u : Fin 1) : v (ix2 a u) = col v a.val :=
  col_eq v a.val a.isLt u

/-! ## The operand matrices: entry (a, b) is sample a, or sample b, of a column -/

/-- The predictions spread along rows. -/
theorem pred_row (a b : Fin 8192) : val_main_v28 (F := Ideal) x (ix2 a b) = col x a.val := by
  rw [val_main_v28_apply, val_main_v26_apply, val_main_v24_apply]
  have e : idx_main_v24 (idx_main_v26 (idx_main_v28 (ix2 a b))) = ix2 a (0 : Fin 1) :=
    funext fun d => Fin.ext (by match d with | ⟨0, _⟩ => exact Nat.div_one _ | ⟨1, _⟩ => rfl)
  rw [e]
  exact col_eq x a.val a.isLt 0

/-- The predictions spread along columns. -/
theorem pred_col (a b : Fin 8192) : val_main_v29 (F := Ideal) x (ix2 a b) = col x b.val := by
  rw [val_main_v29_apply, val_main_v27_apply, val_main_v24_apply]
  have e : idx_main_v24 (idx_main_v27 (idx_main_v29 (ix2 a b))) = ix2 b (0 : Fin 1) :=
    funext fun d => Fin.ext (by match d with | ⟨0, _⟩ => exact Nat.div_one _ | ⟨1, _⟩ => rfl)
  rw [e]
  exact col_eq x b.val b.isLt 0

/-- The targets spread along rows. -/
theorem targ_row (a b : Fin 8192) : val_main_v33 (F := Ideal) y (ix2 a b) = col y a.val := by
  rw [val_main_v33_apply, val_main_v31_apply, val_main_v23_apply]
  have e : idx_main_v23 (idx_main_v31 (idx_main_v33 (ix2 a b))) = ix2 a (0 : Fin 1) :=
    funext fun d => Fin.ext (by match d with | ⟨0, _⟩ => exact Nat.div_one _ | ⟨1, _⟩ => rfl)
  rw [e]
  exact col_eq y a.val a.isLt 0

/-- The targets spread along columns. -/
theorem targ_col (a b : Fin 8192) : val_main_v34 (F := Ideal) y (ix2 a b) = col y b.val := by
  rw [val_main_v34_apply, val_main_v32_apply, val_main_v23_apply]
  have e : idx_main_v23 (idx_main_v32 (idx_main_v34 (ix2 a b))) = ix2 b (0 : Fin 1) :=
    funext fun d => Fin.ext (by match d with | ⟨0, _⟩ => exact Nat.div_one _ | ⟨1, _⟩ => rfl)
  rw [e]
  exact col_eq y b.val b.isLt 0

/-- The weights spread along rows. -/
theorem wt_row (a b : Fin 8192) : val_main_v39 (F := Ideal) y (ix2 a b) = col (weights bcast_S_S8192x1 y) a.val := by
  rw [val_main_v39_apply, val_main_v37_apply, val_main_v25_apply]
  have e : idx_main_v25 (idx_main_v37 (idx_main_v39 (ix2 a b))) = ix2 a (0 : Fin 1) :=
    funext fun d => Fin.ext (by match d with | ⟨0, _⟩ => exact Nat.div_one _ | ⟨1, _⟩ => rfl)
  rw [e, weights_eq]
  exact col_eq (weights bcast_S_S8192x1 y) a.val a.isLt 0

/-- The weights spread along columns. -/
theorem wt_col (a b : Fin 8192) : val_main_v40 (F := Ideal) y (ix2 a b) = col (weights bcast_S_S8192x1 y) b.val := by
  rw [val_main_v40_apply, val_main_v38_apply, val_main_v25_apply]
  have e : idx_main_v25 (idx_main_v38 (idx_main_v40 (ix2 a b))) = ix2 b (0 : Fin 1) :=
    funext fun d => Fin.ext (by match d with | ⟨0, _⟩ => exact Nat.div_one _ | ⟨1, _⟩ => rfl)
  rw [e, weights_eq]
  exact col_eq (weights bcast_S_S8192x1 y) b.val b.isLt 0

/-- The pairwise difference at entry (a, b). -/
theorem diff_at (a b : Fin 8192) : val_main_v36 (F := Ideal) x y (ix2 a b) = dT (col x) (col y) a.val b.val := by
  rw [val_main_v36_apply, val_main_v30_apply, val_main_v35_apply, pred_row, pred_col, targ_row, targ_col]
  rfl

/-- The pair weight at entry (a, b). -/
theorem weight_at (a b : Fin 8192) : val_main_v43 (F := Ideal) y (ix2 a b) = wT (col (weights bcast_S_S8192x1 y)) a.val b.val := by
  rw [val_main_v43_apply, val_main_v42_apply, val_main_cst_9_apply, val_main_v41_apply, wt_row, wt_col]
  rfl

/-- The kept entries are those above the diagonal. -/
theorem keep_at (a b : Fin 8192) : val_main_v45 (F := Ideal) (ix2 a b) = if a.val < b.val then 1#1 else 0#1 := by
  rw [val_main_v45_apply, val_main_call4_v4_apply, val_main_call4_v2_apply, val_main_call4_v0_apply, val_main_call4_v1_apply,
    val_main_call4_c_apply, val_main_call4_v3_apply, val_main_call4_v5_apply, val_main_call4_c_0_apply, val_main_v44_apply,
    val_main_c_apply]
  show Scalar.select (IntOp.cmpi .sge (IntOp.addi (BitVec.ofNat 32 a.val) 0#32) (BitVec.ofNat 32 b.val)) 0#1 1#1 = _
  have ha := a.isLt
  have hb := b.isLt
  rw [plus_zero, sge_small _ _ (by omega) (by omega)]
  by_cases h : a.val < b.val
  · rw [if_neg (by omega), if_pos h]; rfl
  · rw [if_pos (by omega), if_neg h]; rfl

/-- The numerator's summand at entry (a, b). -/
theorem num_at (a b : Fin 8192) :
    val_main_v48 (F := Ideal) x y (ix2 a b) = numT (col x) (col y) (col (weights bcast_S_S8192x1 y)) a.val b.val := by
  rw [val_main_v48_apply, keep_at, val_main_v47_apply, val_main_v46_apply, diff_at, weight_at, val_main_call5_v1_apply,
    val_main_call5_v0_apply, val_main_cst_10_apply]
  unfold numT
  by_cases h : a.val < b.val
  · rw [if_pos h, if_pos h]; exact select_one _ _
  · rw [if_neg h, if_neg h]; exact (select_zero _ _).trans Ideal.ofBits_zero_f32

/-- The denominator's summand at entry (a, b). -/
theorem den_at (a b : Fin 8192) : val_main_v50 (F := Ideal) y (ix2 a b) = denT (col (weights bcast_S_S8192x1 y)) a.val b.val := by
  rw [val_main_v50_apply, keep_at, weight_at, val_main_call6_v1_apply, val_main_call6_v0_apply, val_main_cst_12_apply]
  unfold denT
  by_cases h : a.val < b.val
  · rw [if_pos h, if_pos h]; exact select_one _ _
  · rw [if_neg h, if_neg h]; exact (select_zero _ _).trans Ideal.ofBits_zero_f32

/-! ## The guarded columns are the columns -/

/-- No target is missing: on the extended reals every number equals itself. -/
theorem valid_at (i : S8192x1.Idx) : val_main_v13 (F := Ideal) y i = 1#1 := by
  rw [val_main_v13_apply, val_main_v12_apply]
  show ~~~(Ideal.cmp .une (y i) (y i)) = 1#1
  simp [Ideal.cmp]

/-- Sample a's weighted squared error. -/
theorem mse_at (a : Fin 8192) (u : Fin 1) :
    val_main_v19 (F := Ideal) x y (ix2 a u) = mseT (col x) (col y) (col (weights bcast_S_S8192x1 y)) a.val := by
  rw [val_main_v19_apply, val_main_v17_apply, val_main_v18_apply, valid_at, val_main_v16_apply, val_main_v15_apply,
    val_main_v14_apply, valid_at, weights_eq]
  simp only [select_one]
  rw [col_at x a u, col_at y a u, col_at (weights bcast_S_S8192x1 y) a u]
  rfl

/-- Sample a's weight. -/
theorem w_at (a : Fin 8192) (u : Fin 1) : val_main_v18 (F := Ideal) y (ix2 a u) = col (weights bcast_S_S8192x1 y) a.val := by
  rw [val_main_v18_apply, valid_at, weights_eq]
  simp only [select_one]
  exact col_at (weights bcast_S_S8192x1 y) a u

/-! ## The four sums -/

theorem num_total (i : S_.Idx) : val_main_v49 (F := Ideal) x y i = num (col x) (col y) (col (weights bcast_S_S8192x1 y)) := by
  rw [val_main_v49_apply, val_main_cst_11_apply]
  refine (congrArg (FloatOps.ofBits (F := Ideal) .f32 0x00000000#32 + ·) ((sum_idx2 (val_main_v48 (F := Ideal) x y)).trans
    (Finset.sum_congr rfl fun a _ => Finset.sum_congr rfl fun b _ => num_at x y a b))).trans ?_
  exact (congrArg (· + _) Ideal.ofBits_zero_f32).trans (zero_add _)

theorem den_total (i : S_.Idx) : val_main_v51 (F := Ideal) y i = den (col (weights bcast_S_S8192x1 y)) := by
  rw [val_main_v51_apply, val_main_cst_13_apply]
  refine (congrArg (FloatOps.ofBits (F := Ideal) .f32 0x00000000#32 + ·) ((sum_idx2 (val_main_v50 (F := Ideal) y)).trans
    (Finset.sum_congr rfl fun a _ => Finset.sum_congr rfl fun b _ => den_at y a b))).trans ?_
  exact (congrArg (· + _) Ideal.ofBits_zero_f32).trans (zero_add _)

theorem mnum_total (i : S_.Idx) : val_main_v20 (F := Ideal) x y i = mnum (col x) (col y) (col (weights bcast_S_S8192x1 y)) := by
  rw [val_main_v20_apply, val_main_cst_7_apply]
  refine (congrArg (FloatOps.ofBits (F := Ideal) .f32 0x00000000#32 + ·) ((sum_idx2 (val_main_v19 (F := Ideal) x y)).trans
    (Finset.sum_congr rfl fun a _ => (Fin.sum_univ_one _).trans (mse_at x y a 0)))).trans ?_
  exact (congrArg (· + _) Ideal.ofBits_zero_f32).trans (zero_add _)

theorem mden_total (i : S_.Idx) : val_main_v21 (F := Ideal) y i = mden (col (weights bcast_S_S8192x1 y)) := by
  rw [val_main_v21_apply, val_main_cst_8_apply]
  refine (congrArg (FloatOps.ofBits (F := Ideal) .f32 0x00000000#32 + ·) ((sum_idx2 (val_main_v18 (F := Ideal) y)).trans
    (Finset.sum_congr rfl fun a _ => (Fin.sum_univ_one _).trans (w_at y a 0)))).trans ?_
  exact (congrArg (· + _) Ideal.ofBits_zero_f32).trans (zero_add _)

/-! ## The last step -/

/-- From the four sums the reference forms the loss by the same last step. -/
theorem finish_eq (i : S_.Idx) :
    val_main_v63 (F := Ideal) x y i
      = finish (val_main_v20 (F := Ideal) x y i) (val_main_v21 (F := Ideal) y i) (val_main_v49 (F := Ideal) x y i) (val_main_v51 (F := Ideal) y i) := by
  rw [val_main_v63_apply, val_main_v61_apply, val_main_v62_apply, val_main_v60_apply, val_main_v59_apply, val_main_v58_apply,
    val_main_v57_apply, val_main_v56_apply, val_main_v55_apply, val_main_v54_apply, val_main_v53_apply, val_main_v52_apply,
    val_main_v22_apply, val_main_cst_17_apply, val_main_cst_18_apply, val_main_cst_14_apply, val_main_cst_15_apply,
    val_main_call7_v0_apply, val_main_cst_16_apply]
  generalize val_main_v20 (F := Ideal) x y i = mn
  generalize val_main_v21 (F := Ideal) y i = md
  generalize val_main_v49 (F := Ideal) x y i = n
  generalize val_main_v51 (F := Ideal) y i = d
  rfl

/-- The reference's result is the loss of the prediction, target and weight columns. -/
theorem result (i : S_.Idx) :
    val_main_v63 (F := Ideal) x y i = loss (col x) (col y) (col (weights bcast_S_S8192x1 y)) := by
  rw [finish_eq, mnum_total, mden_total, num_total, den_total]
  rfl

end Cert.ReferenceIdeal.RefValue

end
-- ==== Proof.lean ====
/-
  The certificate's proof: a pairwise contrastive loss with a weighted mean squared error, accumulated tile by tile.

  Both programs compute, from a prediction column X and a target column Y of 8192 samples, the per-sample weights W of
  the targets and then the loss of (X, Y, W): half the weighted mean squared error plus half the rescaled contrastive
  term over the pairs a < b of samples (Proof/Spec.lean). The reference forms the whole 8192 × 8192 pair matrix and sums
  it; the kernel visits it as a 16 × 16 grid of 512 × 512 tiles, adds each tile's kept entries to running totals, adds the
  per-sample sums on the diagonal tiles, and forms the loss after the last tile. Over the extended reals the two are the
  same number because a sum may be regrouped into blocks (Proof/Regroup.lean): only commutativity and associativity of
  addition are used, so the inputs' finiteness is never needed.

  The kernel's side: the values its body stores (Proof/Pieces.lean, Proof/Steps.lean, Proof/Tile.lean), the blocks a grid
  point reads (Proof/Entry.lean), the running totals by induction on the point (Proof/Running.lean) and the run
  (Proof/KernelRun.lean). The reference's side: its result read index by index (Proof/RefValue.lean). The three frames
  are the generated frame runs; the idealization rewrote nothing, so `preserves` is trivial.
-/
import proofs.«139573_j29540785062440_2_alg».proof.Defs
import proofs.«139573_j29540785062440_2_alg».proof.Proof.Gen.Kernel
import proofs.«139573_j29540785062440_2_alg».proof.Proof.Gen.Kernel.Skeleton
import proofs.«139573_j29540785062440_2_alg».proof.Proof.Gen.Kernel.Launch
import proofs.«139573_j29540785062440_2_alg».proof.Proof.Gen.Kernel.Points
import proofs.«139573_j29540785062440_2_alg».proof.Proof.Gen.Kernel.Frame
import proofs.«139573_j29540785062440_2_alg».proof.Proof.Gen.KernelIdeal
import proofs.«139573_j29540785062440_2_alg».proof.Proof.Gen.KernelIdeal.Skeleton
import proofs.«139573_j29540785062440_2_alg».proof.Proof.Gen.KernelIdeal.Launch
import proofs.«139573_j29540785062440_2_alg».proof.Proof.Gen.KernelIdeal.Points
import proofs.«139573_j29540785062440_2_alg».proof.Proof.Gen.KernelIdeal.Frame
import proofs.«139573_j29540785062440_2_alg».proof.Proof.Gen.ReferenceIdeal
import proofs.«139573_j29540785062440_2_alg».proof.Proof.Gen.Pre_finite_inputs
import proofs.«139573_j29540785062440_2_alg».proof.Proof.Gen.ReferenceIdeal.Run
import proofs.«139573_j29540785062440_2_alg».proof.Proof.Gen.ReferenceIdeal.Read
import proofs.«139573_j29540785062440_2_alg».proof.Proof.KernelRun
import proofs.«139573_j29540785062440_2_alg».proof.Proof.RefValue
import Idealize.ShloMosaic.Adequacy
import Idealize.ShloMosaic.Init

noncomputable section

namespace Cert.Proof

open Idealize.ShloMosaic Idealize.ShloMosaic.TcCoe Idealize.SL.Sem Cert.PairLoss

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the two columns, the kernel and the reference both end with the loss of those
    columns and their weights: the kernel's running totals end at the whole sums, and the reference's sums are the
    whole sums. -/
theorem algebraic : Cert.algebraic_KernelIdeal_ReferenceIdeal := by
  intro m ρ m' ρ' _ hagree
  refine ⟨fun c => fun _ => Cert.KernelIdeal.Result.lossOf m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, (hagree c).1, (hagree c).2]
  funext i
  exact Cert.ReferenceIdeal.RefValue.result _ _ i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
